-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x2048 : Shape := ⟨2, ![2048, 2048]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_arg6 : FVec F S1024x1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2048x1024 .f32) (main_arg1 : FVec F S2048x1024 .f32) (main_arg2 : FVec F S2048x1024 .f32) (main_arg3 : IVec S2048x2048 1) (main_arg4 : FVec F S1024x1024 .f32) (main_arg5 : FVec F S1024x1024 .f32) (main_arg6 : FVec F S1024x1024 .f32) (main_arg7 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S2048x1024 : Shape := ⟨2, ![2048, 1024]⟩
abbrev S2048x2048 : Shape := ⟨2, ![2048, 2048]⟩
abbrev S1024x1024 : Shape := ⟨2, ![1024, 1024]⟩
abbrev S512x1024 : Shape := ⟨2, ![512, 1024]⟩
abbrev S256x1024 : Shape := ⟨2, ![256, 1024]⟩
abbrev S256x2048 : Shape := ⟨2, ![256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 22
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x2048, .i1⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x2048, .i32⟩
  | .hbm, ⟨20, _⟩ => ⟨S2048x1024, .bf16⟩
  | .hbm, ⟨21, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S256x1024, .bf16⟩
  | .local _ .vmem, ⟨16, _⟩ => ⟨S256x1024, .bf16⟩
  | .local _ .vmem, ⟨17, _⟩ => ⟨S2048x1024, .bf16⟩
  | .local _ .vmem, ⟨18, _⟩ => ⟨S2048x1024, .bf16⟩
  | .local _ .vmem, ⟨19, _⟩ => ⟨S256x2048, .i32⟩
  | .local _ .vmem, ⟨20, _⟩ => ⟨S256x2048, .i32⟩
  | .local _ .vmem, ⟨21, _⟩ => ⟨S256x1024, .bf16⟩
  | .local _ .vmem, ⟨22, _⟩ => ⟨S256x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev cc3_sem4_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  natLt_1_32 : 1 < 32
  inb_S256x2048_S256x2048_0_0 : ∀ a, (![0, 0] : Fin 2 → Nat) a + S256x2048.size a ≤ S256x2048.size a
  h_S256x2048 : 0 < S256x2048.numel
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  inb_S2048x1024_S2048x64_0_0 : ∀ a, (![0, 0] : Fin 2 → Nat) a + S2048x64.size a ≤ S2048x1024.size a
  h_S2048x64 : 0 < S2048x64.numel
  shapeCasts_S2048x64_S2048x64 : S2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  packedbf16_S256x1024_S256x64_0_0 : (Rect.unit (s := S256x1024) ![0, 0] S256x64.size inb_S256x1024_S256x64_0_0).PackedRows (EltTy.packing .bf16)
  inb_S256x1024_S256x64_0_64 : ∀ a, (![0, 64] : Fin 2 → Nat) a + S256x64.size a ≤ S256x1024.size a
  inb_S2048x1024_S2048x64_0_64 : ∀ a, (![0, 64] : Fin 2 → Nat) a + S2048x64.size a ≤ S2048x1024.size a
  packedbf16_S256x1024_S256x64_0_64 : (Rect.unit (s := S256x1024) ![0, 64] S256x64.size inb_S256x1024_S256x64_0_64).PackedRows (EltTy.packing .bf16)
  inb_S256x1024_S256x64_0_128 : ∀ a, (![0, 128] : Fin 2 → Nat) a + S256x64.size a ≤ S256x1024.size a
  inb_S2048x1024_S2048x64_0_128 : ∀ a, (![0, 128] : Fin 2 → Nat) a + S2048x64.size a ≤ S2048x1024.size a
  packedbf16_S256x1024_S256x64_0_128 : (Rect.unit (s := S256x1024) ![0, 128] S256x64.size inb_S256x1024_S256x64_0_128).PackedRows (EltTy.packing .bf16)
  inb_S256x1024_S256x64_0_192 : ∀ a, (![0, 192] : Fin 2 → Nat) a + S256x64.size a ≤ S256x1024.size a
  inb_S2048x1024_S2048x64_0_192 : ∀ a, (![0, 192] : Fin 2 → Nat) a + S2048x64.size a ≤ S2048x1024.size a
  packedbf16_S256x1024_S256x64_0_192 : (Rect.unit (s := S256x1024) ![0, 192] S256x64.size inb_S256x1024_S256x64_0_192).PackedRows (EltTy.packing .bf16)
  inb_S256x1024_S256x64_0_256 : ∀ a, (![0, 256] : Fin 2 → Nat) a + S256x64.size a ≤ S256x1024.size a
  inb_S2048x1024_S2048x64_0_256 : ∀ a, (![0, 256] : Fin 2 → Nat) a + S2048x64.size a ≤ S2048x1024.size a
  packedbf16_S256x1024_S256x64_0_256 : (Rect.unit (s := S256x1024) ![0, 256] S256x64.size inb_S256x1024_S256x64_0_256).PackedRows (EltTy.packing .bf16)
  inb_S256x1024_S256x64_0_320 : ∀ a, (![0, 320] : Fin 2 → Nat) a + S256x64.size a ≤ S256x1024.size a
  inb_S2048x1024_S2048x64_0_320 : ∀ a, (![0, 320] : Fin 2 → Nat) a + S2048x64.size a ≤ S2048x1024.size a
  packedbf16_S256x1024_S256x64_0_320 : (Rect.unit (s := S256x1024) ![0, 320] S256x64.size inb_S256x1024_S256x64_0_320).PackedRows (EltTy.packing .bf16)
  inb_S256x1024_S256x64_0_384 : ∀ a, (![0, 384] : Fin 2 → Nat) a + S256x64.size a ≤ S256x1024.size a
  inb_S2048x1024_S2048x64_0_384 : ∀ a, (![0, 384] : Fin 2 → Nat) a + S2048x64.size a ≤ S2048x1024.size a
  packedbf16_S256x1024_S256x64_0_384 : (Rect.unit (s := S256x1024) ![0, 384] S256x64.size inb_S256x1024_S256x64_0_384).PackedRows (EltTy.packing .bf16)
  inb_S256x1024_S256x64_0_448 : ∀ a, (![0, 448] : Fin 2 → Nat) a + S256x64.size a ≤ S256x1024.size a
  inb_S2048x1024_S2048x64_0_448 : ∀ a, (![0, 448] : Fin 2 → Nat) a + S2048x64.size a ≤ S2048x1024.size a
  packedbf16_S256x1024_S256x64_0_448 : (Rect.unit (s := S256x1024) ![0, 448] S256x64.size inb_S256x1024_S256x64_0_448).PackedRows (EltTy.packing .bf16)
  inb_S256x1024_S256x64_0_512 : ∀ a, (![0, 512] : Fin 2 → Nat) a + S256x64.size a ≤ S256x1024.size a
  inb_S2048x1024_S2048x64_0_512 : ∀ a, (![0, 512] : Fin 2 → Nat) a + S2048x64.size a ≤ S2048x1024.size a
  packedbf16_S256x1024_S256x64_0_512 : (Rect.unit (s := S256x1024) ![0, 512] S256x64.size inb_S256x1024_S256x64_0_512).PackedRows (EltTy.packing .bf16)
  inb_S256x1024_S256x64_0_576 : ∀ a, (![0, 576] : Fin 2 → Nat) a + S256x64.size a ≤ S256x1024.size a
  inb_S2048x1024_S2048x64_0_576 : ∀ a, (![0, 576] : Fin 2 → Nat) a + S2048x64.size a ≤ S2048x1024.size a
  packedbf16_S256x1024_S256x64_0_576 : (Rect.unit (s := S256x1024) ![0, 576] S256x64.size inb_S256x1024_S256x64_0_576).PackedRows (EltTy.packing .bf16)
  inb_S256x1024_S256x64_0_640 : ∀ a, (![0, 640] : Fin 2 → Nat) a + S256x64.size a ≤ S256x1024.size a
  inb_S2048x1024_S2048x64_0_640 : ∀ a, (![0, 640] : Fin 2 → Nat) a + S2048x64.size a ≤ S2048x1024.size a
  packedbf16_S256x1024_S256x64_0_640 : (Rect.unit (s := S256x1024) ![0, 640] S256x64.size inb_S256x1024_S256x64_0_640).PackedRows (EltTy.packing .bf16)
  inb_S256x1024_S256x64_0_704 : ∀ a, (![0, 704] : Fin 2 → Nat) a + S256x64.size a ≤ S256x1024.size a
  inb_S2048x1024_S2048x64_0_704 : ∀ a, (![0, 704] : Fin 2 → Nat) a + S2048x64.size a ≤ S2048x1024.size a
  packedbf16_S256x1024_S256x64_0_704 : (Rect.unit (s := S256x1024) ![0, 704] S256x64.size inb_S256x1024_S256x64_0_704).PackedRows (EltTy.packing .bf16)
  inb_S256x1024_S256x64_0_768 : ∀ a, (![0, 768] : Fin 2 → Nat) a + S256x64.size a ≤ S256x1024.size a
  inb_S2048x1024_S2048x64_0_768 : ∀ a, (![0, 768] : Fin 2 → Nat) a + S2048x64.size a ≤ S2048x1024.size a
  packedbf16_S256x1024_S256x64_0_768 : (Rect.unit (s := S256x1024) ![0, 768] S256x64.size inb_S256x1024_S256x64_0_768).PackedRows (EltTy.packing .bf16)
  inb_S256x1024_S256x64_0_832 : ∀ a, (![0, 832] : Fin 2 → Nat) a + S256x64.size a ≤ S256x1024.size a
  inb_S2048x1024_S2048x64_0_832 : ∀ a, (![0, 832] : Fin 2 → Nat) a + S2048x64.size a ≤ S2048x1024.size a
  packedbf16_S256x1024_S256x64_0_832 : (Rect.unit (s := S256x1024) ![0, 832] S256x64.size inb_S256x1024_S256x64_0_832).PackedRows (EltTy.packing .bf16)
  inb_S256x1024_S256x64_0_896 : ∀ a, (![0, 896] : Fin 2 → Nat) a + S256x64.size a ≤ S256x1024.size a
  inb_S2048x1024_S2048x64_0_896 : ∀ a, (![0, 896] : Fin 2 → Nat) a + S2048x64.size a ≤ S2048x1024.size a
  packedbf16_S256x1024_S256x64_0_896 : (Rect.unit (s := S256x1024) ![0, 896] S256x64.size inb_S256x1024_S256x64_0_896).PackedRows (EltTy.packing .bf16)
  inb_S256x1024_S256x64_0_960 : ∀ a, (![0, 960] : Fin 2 → Nat) a + S256x64.size a ≤ S256x1024.size a
  inb_S2048x1024_S2048x64_0_960 : ∀ a, (![0, 960] : Fin 2 → Nat) a + S2048x64.size a ≤ S2048x1024.size a
  packedbf16_S256x1024_S256x64_0_960 : (Rect.unit (s := S256x1024) ![0, 960] S256x64.size inb_S256x1024_S256x64_0_960).PackedRows (EltTy.packing .bf16)
  shapeCasts_S512x1024_S512x1024 : S512x1024.ShapeCasts S512x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .bf16 = 32 ∨ (Rect.block (s := S2048x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x1024.size a
  hwx1_2 : ∀ i : grid1.Coords, EltTy.bits .bf16 = 32 ∨ (Rect.block (s := S2048x1024) S512x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x1024.size a
  hwx2_2 : ∀ i : grid2.Coords, EltTy.bits .bf16 = 32 ∨ (Rect.block (s := S2048x1024) S512x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S2048x1024.size a
  hwx3_0 : ∀ i : grid3.Coords, EltTy.bits .bf16 = 32 ∨ (Rect.block (s := S2048x1024) S256x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S2048x1024.size a
  hwx3_1 : ∀ i : grid3.Coords, EltTy.bits .bf16 = 32 ∨ (Rect.block (s := S2048x1024) S2048x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S2048x1024.size a
  hwx3_2 : ∀ i : grid3.Coords, EltTy.bits .bf16 = 32 ∨ (Rect.block (s := S2048x1024) S2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S2048x2048.size a
  hwx3_3 : ∀ i : grid3.Coords, EltTy.bits .i32 = 32 ∨ (Rect.block (s := S2048x2048) S256x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x1024.size a ≤ S2048x1024.size a
  hwx3_4 : ∀ i : grid3.Coords, EltTy.bits .bf16 = 32 ∨ (Rect.block (s := S2048x1024) S256x1024.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S2048x1024.size a
  hwx4_0 : ∀ i : grid4.Coords, EltTy.bits .bf16 = 32 ∨ (Rect.block (s := S2048x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S2048x1024.size a
  hwx4_2 : ∀ i : grid4.Coords, EltTy.bits .f32 = 32 ∨ (Rect.block (s := S2048x1024) S512x1024.size (cc4_transform_2 i) (hinb4_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2048x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S256x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v12) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v13) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2048x1024 : Shape := ⟨2, ![2048, 1024]⟩
abbrev S2048x2048 : Shape := ⟨2, ![2048, 2048]⟩
abbrev S1024x1024 : Shape := ⟨2, ![1024, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S_ : Shape := ⟨0, ![]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x2048, .i1⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S2048x16x64, .f32⟩
  | .hbm, ⟨11, _⟩ => ⟨S16x2048x64, .f32⟩
  | .hbm, ⟨12, _⟩ => ⟨S1024x1024, .f32⟩
  | .hbm, ⟨13, _⟩ => ⟨S2048x1024, .f32⟩
  | .hbm, ⟨14, _⟩ => ⟨S2048x16x64, .f32⟩
  | .hbm, ⟨15, _⟩ => ⟨S16x2048x64, .f32⟩
  | .hbm, ⟨16, _⟩ => ⟨S1024x1024, .f32⟩
  | .hbm, ⟨17, _⟩ => ⟨S2048x1024, .f32⟩
  | .hbm, ⟨18, _⟩ => ⟨S2048x16x64, .f32⟩
  | .hbm, ⟨19, _⟩ => ⟨S16x2048x64, .f32⟩
  | .hbm, ⟨20, _⟩ => ⟨S16x2048x2048, .f32⟩
  | .hbm, ⟨21, _⟩ => ⟨S_, .f32⟩
  | .hbm, ⟨22, _⟩ => ⟨S16x2048x2048, .f32⟩
  | .hbm, ⟨23, _⟩ => ⟨S16x2048x2048, .f32⟩
  | .hbm, ⟨24, _⟩ => ⟨S1x2048x2048, .i1⟩
  | .hbm, ⟨25, _⟩ => ⟨S_, .f32⟩
  | .hbm, ⟨26, _⟩ => ⟨S_, .f32⟩
  | .hbm, ⟨27, _⟩ => ⟨S16x2048x2048, .i1⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S_, .f32⟩
  | .hbm, ⟨33, _⟩ => ⟨S16x2048, .f32⟩
  | .hbm, ⟨34, _⟩ => ⟨S16x2048, .f32⟩
  | .hbm, ⟨35, _⟩ => ⟨S16x2048x1, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S16x2048x2048, .f32⟩
  | .hbm, ⟨43, _⟩ => ⟨S16x2048x2048, .f32⟩
  | .hbm, ⟨44, _⟩ => ⟨S16x2048x64, .f32⟩
  | .hbm, ⟨45, _⟩ => ⟨S2048x16x64, .f32⟩
  | .hbm, ⟨46, _⟩ => ⟨S2048x1024, .f32⟩
  | .hbm, ⟨47, _⟩ => ⟨S1024x1024, .f32⟩
  | .hbm, ⟨48, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  transposes_S1024x1024_S1024x1024_1_0 : S1024x1024.Transposes [1, 0] S1024x1024
  shapeCasts_S2048x1024_S2048x16x64 : S2048x1024.ShapeCasts S2048x16x64
  transposes_S2048x16x64_S16x2048x64_1_0_2 : S2048x16x64.Transposes [1, 0, 2] S16x2048x64
  bcast_S_S16x2048x2048 : S_.BroadcastsInDim S16x2048x2048 (![] : Fin 0 → Fin S16x2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KRun.lean ====
/-
  The kernel's whole run with the RESULT exposed.

  The generated frame certificate proves that every weakly fair execution of the program on the TensorCores
  terminates without a fault and leaves the argument arrays as launched.  Its proof establishes more than it states:
  at the end every unscoped buffer holds the last boundary's contents of the fold through the program's segments.
  Here the same run is stated with the result buffer read off that fold as well, so that what the kernel computes
  can be spoken of: the final memory at the result buffer is the fold's last stage at that buffer.
-/
import proofs.«169011_j24979529793739_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters, every weakly fair execution of the program on the TensorCores terminates,
    nothing faulting; every final state has the result buffer at the last stage of the fold of buffer contents
    through the program's segments, and the argument arrays as launched. -/
theorem run : θ_run defs (onTc (τ := τ) (main (F := F))) ⟨m, fun _ => 0, ρ⟩ (fun r => ∀ c : Dev nD,
      r.2.mem ((c.tc : Thread nD τ).loc main_v13) = W7 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v13 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Run

end
-- ==== Proof.AttnSpec.lean ====
/-
  Multi-head attention over the extended reals, stated on plain coordinates.

  A sequence of 2048 positions carries 1024 features, read as 16 heads of 64 features each: feature j belongs to
  head j / 64 and sits at offset j % 64 inside it.  Three inputs are projected by x ↦ x · Wᵀ.  For a head h, the score
  of query position s against key position t is the inner product of the two projected rows over the head's 64
  features, times a fixed scale — or a fixed large negative number where the mask is set.  Along t the scores are
  turned into weights exp (score − row maximum), and the weighted sum of the projected values is divided by the sum
  of the weights.  Two ways of spelling that normalisation are stated: dividing the weighted sum once (`headK`), and
  dividing every weight before it multiplies its value (`headR`).  The last step is one more product with Woᵀ.
-/
import Idealize.ShloMosaic.PureOps.Ideal
import Idealize.ShloMosaic.Lib.ValueIdx

noncomputable section

namespace Cert.Attn

open Idealize.ShloMosaic Idealize.ShloMosaic.ValueIdx

/-- A two-axis array read on plain coordinates. -/
def mat {α : Type} {a b : ℕ} (x : (⟨2, ![a, b]⟩ : Shape).Idx → α) : Fin a → Fin b → α := fun p q => x (ix2 p q)

/-- A function of plain coordinates as a two-axis array. -/
def unmat {α : Type} {a b : ℕ} (f : Fin a → Fin b → α) : (⟨2, ![a, b]⟩ : Shape).Idx → α :=
  fun i => f ⟨(i 0).val, idx2_lt0 i⟩ ⟨(i 1).val, idx2_lt1 i⟩

theorem unmat_ix2 {α : Type} {a b : ℕ} (f : Fin a → Fin b → α) (p : Fin a) (q : Fin b) : unmat f (ix2 p q) = f p q := rfl

/-- Feature `d` of head `h` among the 1024 features. -/
def col (h : Fin 16) (d : Fin 64) : Fin 1024 := ⟨h.val * 64 + d.val, by omega⟩

/-- The head a feature belongs to. -/
def headOf (j : Fin 1024) : Fin 16 := ⟨j.val / 64, by omega⟩

/-- The projection x · Wᵀ: entry (s, j) is the sum over k of x (s, k) · W (j, k). -/
def proj (x : Fin 2048 → Fin 1024 → EReal) (W : Fin 1024 → Fin 1024 → EReal) (s : Fin 2048) (j : Fin 1024) : EReal :=
  ∑ k : Fin 1024, x s k * W j k

/-- The value written where the mask is set (the f32 nearest to −10³⁰). -/
def negBig : EReal := Ideal.ofBits .f32 0xF149F2CA#32

/-- The scale of the scores, 1/8. -/
def scale : EReal := Ideal.ofBits .f32 0x3E000000#32

/-- Head `h`'s score of query position `s` against key position `t`. -/
def score (qp kp : Fin 2048 → Fin 1024 → EReal) (msk : Fin 2048 → Fin 2048 → BitVec 1) (h : Fin 16) (s t : Fin 2048) : EReal :=
  Scalar.select (msk s t) negBig ((∑ d : Fin 64, qp s (col h d) * kp t (col h d)) * scale)

/-- The maximum of a row of scores, as a fold from −∞. -/
def rowmax (f : Fin 2048 → EReal) : EReal := (Finset.univ : Finset (Fin 2048)).fold max (⊥ : EReal) f

/-- The weight of position `t`: exp (score − row maximum). -/
def wt (sc : Fin 2048 → EReal) (t : Fin 2048) : EReal := Ideal.exp (sc t - rowmax sc)

/-- The sum of a row's weights. -/
def den (sc : Fin 2048 → EReal) : EReal := ∑ t : Fin 2048, wt sc t

/-- Normalising after the weighted sum: (Σ weight · value) / Σ weight. -/
def headK (sc v : Fin 2048 → EReal) : EReal := Ideal.div (∑ t : Fin 2048, wt sc t * v t) (den sc)

/-- Normalising every weight first: Σ (weight / Σ weight) · value. -/
def headR (sc v : Fin 2048 → EReal) : EReal := ∑ t : Fin 2048, Ideal.div (wt sc t) (den sc) * v t

/-- Attention output at position `s`, feature `j`, normalised after the weighted sum. -/
def attnK (qp kp vp : Fin 2048 → Fin 1024 → EReal) (msk : Fin 2048 → Fin 2048 → BitVec 1) (s : Fin 2048) (j : Fin 1024) : EReal :=
  headK (score qp kp msk (headOf j) s) (fun t => vp t j)

/-- Attention output at position `s`, feature `j`, every weight normalised first. -/
def attnR (qp kp vp : Fin 2048 → Fin 1024 → EReal) (msk : Fin 2048 → Fin 2048 → BitVec 1) (s : Fin 2048) (j : Fin 1024) : EReal :=
  headR (score qp kp msk (headOf j) s) (fun t => vp t j)

/-- The whole layer with `attnK`. -/
def outK (q k v : Fin 2048 → Fin 1024 → EReal) (msk : Fin 2048 → Fin 2048 → BitVec 1) (Wq Wk Wv Wo : Fin 1024 → Fin 1024 → EReal)
    (s : Fin 2048) (e : Fin 1024) : EReal :=
  ∑ j : Fin 1024, attnK (proj q Wq) (proj k Wk) (proj v Wv) msk s j * Wo e j

/-- The whole layer with `attnR`. -/
def outR (q k v : Fin 2048 → Fin 1024 → EReal) (msk : Fin 2048 → Fin 2048 → BitVec 1) (Wq Wk Wv Wo : Fin 1024 → Fin 1024 → EReal)
    (s : Fin 2048) (e : Fin 1024) : EReal :=
  ∑ j : Fin 1024, attnR (proj q Wq) (proj k Wk) (proj v Wv) msk s j * Wo e j

end Cert.Attn

end
-- ==== Proof.KWalk.lean ====
/-
  The buffers at the region boundaries, walked back.

  The generated frame certificate folds the TensorCore's buffer contents through the program's seven segments: a
  stretch of host operations (four transposes, each followed by a narrowing conversion), three projection regions,
  one more host operation (the mask widened to 32-bit words), the attention region, and the output-projection region.
  Each lemma here reads ONE buffer at ONE boundary of that fold: an array a region wrote holds what that region's
  pipeline leaves; an array no later segment touches holds what it held one boundary earlier; an array a host stretch
  wrote holds that stretch's operations applied to the launch contents.  Over the extended reals a narrowing
  conversion is the identity, so a transposed-and-converted weight matrix is the transpose of the launch matrix.
-/
import proofs.«169011_j24979529793739_2_alg».proof.Proof.Gen.KernelIdeal.Frame
import proofs.«169011_j24979529793739_2_alg».proof.Proof.AttnSpec
import Idealize.ShloMosaic.Lib.Pipeline.Value

set_option maxRecDepth 16384

noncomputable section

namespace Cert.KernelIdeal.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- A stretch of host operations leaves a buffer none of them writes as it was: the obligation "no operation of the
    stretch writes this reference", decided operation by operation. -/
local macro "untouched_by " ops:ident " at " r:ident : term =>
  `(StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Arrays a region wrote -/

/-- The result buffer at the end: what the output-projection region's pipeline leaves in its output array. -/
theorem W7_v13 (c : Dev nD) : W7 m ρ c (Proc.devRef .tc main_v13) = (dat4 (V6 m ρ) c).arrAt 2 cfg4.N :=
  W7_arr m ρ c 2

/-- The attention region's output, as the output-projection region finds it. -/
theorem V6_v12 (c : Dev nD) : V6 m ρ c main_v12 = (dat3 (V5 m ρ) c).arrAt 4 cfg3.N :=
  W6_arr m ρ c 4

/-- The first projection, as the attention region finds it: nothing between touches it. -/
theorem V5_v8 (c : Dev nD) : V5 m ρ c main_v8 = (dat0 (V1 m ρ) c).arrAt 2 cfg0.N :=
  calc W5 m ρ c (Proc.devRef .tc main_v8)
    _ = W4 m ρ c (Proc.devRef .tc main_v8) := untouched_by hostOps3 at main_v8
    _ = W3 m ρ c (Proc.devRef .tc main_v8) := W4_of_ne m ρ c main_v8 (by decide)
    _ = W2 m ρ c (Proc.devRef .tc main_v8) := W3_of_ne m ρ c main_v8 (by decide)
    _ = (dat0 (V1 m ρ) c).arrAt 2 cfg0.N := W2_arr m ρ c 2

/-- The second projection, as the attention region finds it. -/
theorem V5_v9 (c : Dev nD) : V5 m ρ c main_v9 = (dat1 (V2 m ρ) c).arrAt 2 cfg1.N :=
  calc W5 m ρ c (Proc.devRef .tc main_v9)
    _ = W4 m ρ c (Proc.devRef .tc main_v9) := untouched_by hostOps3 at main_v9
    _ = W3 m ρ c (Proc.devRef .tc main_v9) := W4_of_ne m ρ c main_v9 (by decide)
    _ = (dat1 (V2 m ρ) c).arrAt 2 cfg1.N := W3_arr m ρ c 2

/-- The third projection, as the attention region finds it. -/
theorem V5_v10 (c : Dev nD) : V5 m ρ c main_v10 = (dat2 (V3 m ρ) c).arrAt 2 cfg2.N :=
  calc W5 m ρ c (Proc.devRef .tc main_v10)
    _ = W4 m ρ c (Proc.devRef .tc main_v10) := untouched_by hostOps3 at main_v10
    _ = (dat2 (V3 m ρ) c).arrAt 2 cfg2.N := W4_arr m ρ c 2

/-! ## Arguments, as the projection regions find them -/

theorem V1_arg0 (c : Dev nD) : V1 m ρ c main_arg0 = m ((c : Thread nD τ).loc main_arg0) :=
  calc W1 m ρ c (Proc.devRef .tc main_arg0)
    _ = W0 m ρ c (Proc.devRef .tc main_arg0) := untouched_by hostOps0 at main_arg0
    _ = m ((c : Thread nD τ).loc main_arg0) := rfl

theorem V2_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := untouched_by hostOps0 at main_arg1
    _ = m ((c : Thread nD τ).loc main_arg1) := rfl

theorem V3_arg2 (c : Dev nD) : V3 m ρ c main_arg2 = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := untouched_by hostOps0 at main_arg2
    _ = m ((c : Thread nD τ).loc main_arg2) := rfl

/-! ## Arrays the host wrote -/

/-- A matrix transposed and then narrowed, read on plain coordinates: over the extended reals the narrowing is the
    identity, so the entry at (k, j) is the operand's entry at (j, k). -/
theorem truncf_transpose_eq (x : S1024x1024.Idx → EReal) (h : S1024x1024.Transposes [1, 0] S1024x1024)
    (hb : FTy.bits .bf16 < FTy.bits .f32) :
    (truncf (F := Ideal) .bf16 (transpose S1024x1024 [1, 0] x h : FVec Ideal S1024x1024 .f32) hb : S1024x1024.Idx → EReal)
      = Cert.Attn.unmat (fun k j => Cert.Attn.mat x j k) := by
  funext i
  exact transpose_apply [1, 0] x h i (ValueIdx.ix2 ⟨(i 1).val, ValueIdx.idx2_lt1 i⟩ ⟨(i 0).val, ValueIdx.idx2_lt0 i⟩)
    (fun b => match b with | ⟨0, _⟩ => rfl | ⟨1, _⟩ => rfl)

/-- The first weight matrix as the first projection region finds it: the launch matrix transposed. -/
theorem V1_v1 (c : Dev nD) : (V1 m ρ c main_v1 : S1024x1024.Idx → EReal)
    = Cert.Attn.unmat (fun k j => Cert.Attn.mat (m ((c : Thread nD τ).loc main_arg4) : S1024x1024.Idx → EReal) j k) := by
  have e : (V1 m ρ c main_v1 : S1024x1024.Idx → EReal)
      = truncf (F := Ideal) .bf16 (transpose S1024x1024 [1, 0] (m ((c : Thread nD τ).loc main_arg4) : S1024x1024.Idx → EReal)
          transposes_S1024x1024_S1024x1024_1_0 : FVec Ideal S1024x1024 .f32) bitsLt_bf16_f32 := by
    show StableHlo.after hostOps0 _ (Proc.devRef .tc main_v1) = _
    after_results
  rw [e]
  exact truncf_transpose_eq _ _ _

/-- The second weight matrix as the second projection region finds it: region 0 does not touch it. -/
theorem V2_v3 (c : Dev nD) : (V2 m ρ c main_v3 : S1024x1024.Idx → EReal)
    = Cert.Attn.unmat (fun k j => Cert.Attn.mat (m ((c : Thread nD τ).loc main_arg5) : S1024x1024.Idx → EReal) j k) := by
  have e : (V2 m ρ c main_v3 : S1024x1024.Idx → EReal)
      = truncf (F := Ideal) .bf16 (transpose S1024x1024 [1, 0] (m ((c : Thread nD τ).loc main_arg5) : S1024x1024.Idx → EReal)
          transposes_S1024x1024_S1024x1024_1_0 : FVec Ideal S1024x1024 .f32) bitsLt_bf16_f32 :=
    calc W2 m ρ c (Proc.devRef .tc main_v3)
      _ = W1 m ρ c (Proc.devRef .tc main_v3) := W2_of_ne m ρ c main_v3 (by decide)
      _ = _ := by
        show StableHlo.after hostOps0 _ (Proc.devRef .tc main_v3) = _
        after_results
  rw [e]
  exact truncf_transpose_eq _ _ _

/-- The third weight matrix as the third projection region finds it: regions 0 and 1 do not touch it. -/
theorem V3_v5 (c : Dev nD) : (V3 m ρ c main_v5 : S1024x1024.Idx → EReal)
    = Cert.Attn.unmat (fun k j => Cert.Attn.mat (m ((c : Thread nD τ).loc main_arg6) : S1024x1024.Idx → EReal) j k) := by
  have e : (V3 m ρ c main_v5 : S1024x1024.Idx → EReal)
      = truncf (F := Ideal) .bf16 (transpose S1024x1024 [1, 0] (m ((c : Thread nD τ).loc main_arg6) : S1024x1024.Idx → EReal)
          transposes_S1024x1024_S1024x1024_1_0 : FVec Ideal S1024x1024 .f32) bitsLt_bf16_f32 :=
    calc W3 m ρ c (Proc.devRef .tc main_v5)
      _ = W2 m ρ c (Proc.devRef .tc main_v5) := W3_of_ne m ρ c main_v5 (by decide)
      _ = W1 m ρ c (Proc.devRef .tc main_v5) := W2_of_ne m ρ c main_v5 (by decide)
      _ = _ := by
        show StableHlo.after hostOps0 _ (Proc.devRef .tc main_v5) = _
        after_results
  rw [e]
  exact truncf_transpose_eq _ _ _

/-- The output weight matrix as the output-projection region finds it: written by the first host stretch, untouched
    by the four regions and the host operation between. -/
theorem V6_v7 (c : Dev nD) : (V6 m ρ c main_v7 : S1024x1024.Idx → EReal)
    = Cert.Attn.unmat (fun k j => Cert.Attn.mat (m ((c : Thread nD τ).loc main_arg7) : S1024x1024.Idx → EReal) j k) := by
  have e : (V6 m ρ c main_v7 : S1024x1024.Idx → EReal)
      = truncf (F := Ideal) .bf16 (transpose S1024x1024 [1, 0] (m ((c : Thread nD τ).loc main_arg7) : S1024x1024.Idx → EReal)
          transposes_S1024x1024_S1024x1024_1_0 : FVec Ideal S1024x1024 .f32) bitsLt_bf16_f32 :=
    calc W6 m ρ c (Proc.devRef .tc main_v7)
      _ = W5 m ρ c (Proc.devRef .tc main_v7) := W6_of_ne m ρ c main_v7 (by decide)
      _ = W4 m ρ c (Proc.devRef .tc main_v7) := untouched_by hostOps3 at main_v7
      _ = W3 m ρ c (Proc.devRef .tc main_v7) := W4_of_ne m ρ c main_v7 (by decide)
      _ = W2 m ρ c (Proc.devRef .tc main_v7) := W3_of_ne m ρ c main_v7 (by decide)
      _ = W1 m ρ c (Proc.devRef .tc main_v7) := W2_of_ne m ρ c main_v7 (by decide)
      _ = _ := by
        show StableHlo.after hostOps0 _ (Proc.devRef .tc main_v7) = _
        after_results
  rw [e]
  exact truncf_transpose_eq _ _ _

/-- The mask argument just before the attention region: no earlier segment writes it. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := untouched_by hostOps0 at main_arg3
    _ = m ((c : Thread nD τ).loc main_arg3) := rfl

/-- The mask as the attention region finds it: each one-bit entry of the mask argument widened to a 32-bit word. -/
theorem V5_v11 (c : Dev nD) : (V5 m ρ c main_v11 : S2048x2048.Idx → BitVec 32)
    = fun i => ((m ((c : Thread nD τ).loc main_arg3) : S2048x2048.Idx → BitVec 1) i).setWidth 32 := by
  have e : (V5 m ρ c main_v11 : S2048x2048.Idx → BitVec 32)
      = extui 32 (W4 m ρ c (Proc.devRef .tc main_arg3) : S2048x2048.Idx → BitVec 1) natLt_1_32 := by
    show StableHlo.after hostOps3 _ (Proc.devRef .tc main_v11) = _
    after_results
  rw [e, W4_arg3]
  rfl

end Cert.KernelIdeal.Walk

end
-- ==== Proof.KDots.lean ====
/-
  The three matrix products of the kernel, read at an entry.

  Over the extended reals a matrix-unit product into a zero accumulator is the plain sum of products over the
  contracted axis.  Three shapes occur: a [512, 1024] block of rows times a [1024, 1024] matrix (the four projections),
  a [256, 64] block of query rows against a [2048, 64] block of key rows contracted over the 64 features (the scores,
  the second operand read transposed), and a [256, 2048] block of weights times a [2048, 64] block of values.
-/
import proofs.«169011_j24979529793739_2_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

theorem proj_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem proj_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem proj_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem proj_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows times matrix: entry (r, c) is the sum over k of lhs (r, k) · rhs (k, c). -/
theorem proj_apply (lhs : FVec Ideal S512x1024 .bf16) (rhs : FVec Ideal S1024x1024 .bf16) (r : Fin 512) (c : Fin 1024) :
    matmul dot_S512x1024_S1024x1024_S512x1024_1_0_0_1_n_n none lhs rhs (constant S512x1024 .f32 0x00000000#32) (ix2 r c)
      = ∑ k : Fin 1024, lhs (ix2 r k) * rhs (ix2 k c) := by
  refine (Ideal.matmul_constant_zero_apply dot_S512x1024_S1024x1024_S512x1024_1_0_0_1_n_n none lhs rhs (ix2 r c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k :=
    funext fun a => Fin.ext (by
      match a with
      | ⟨0, _⟩ => exact proj_lhs0 _ _
      | ⟨1, _⟩ => exact (proj_lhs1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c :=
    funext fun a => Fin.ext (by
      match a with
      | ⟨0, _⟩ => exact (proj_rhs0 _ _).trans hk
      | ⟨1, _⟩ => exact proj_rhs1 _ _)
  rw [el, er]

theorem scores_lhs0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem scores_lhs1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem scores_rhs0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem scores_rhs1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Query rows against key rows: entry (r, t) is the sum over the 64 features d of lhs (r, d) · rhs (t, d). -/
theorem scores_apply (lhs : FVec Ideal S256x64 .bf16) (rhs : FVec Ideal S2048x64 .bf16) (r : Fin 256) (t : Fin 2048) :
    matmul dot_S256x64_S2048x64_S256x2048_1_1_0_0_n_n none lhs rhs (constant S256x2048 .f32 0x00000000#32) (ix2 r t)
      = ∑ d : Fin 64, lhs (ix2 r d) * rhs (ix2 t d) := by
  refine (Ideal.matmul_constant_zero_apply dot_S256x64_S2048x64_S256x2048_1_1_0_0_n_n none lhs rhs (ix2 r t)).trans ?_
  rw [← Equiv.sum_comp (contrEquiv1 dot_S256x64_S2048x64_S256x2048_1_1_0_0_n_n 64 rfl rfl).symm]
  refine Finset.sum_congr rfl fun d _ => ?_
  have hk := contrEquiv1_symm_val dot_S256x64_S2048x64_S256x2048_1_1_0_0_n_n 64 rfl rfl d
  have el : dot_S256x64_S2048x64_S256x2048_1_1_0_0_n_n.lhsIdx (ix2 r t) ((contrEquiv1 dot_S256x64_S2048x64_S256x2048_1_1_0_0_n_n 64 rfl rfl).symm d) = ix2 r d :=
    funext fun a => Fin.ext (by
      match a with
      | ⟨0, _⟩ => exact scores_lhs0 _ _
      | ⟨1, _⟩ => exact (scores_lhs1 _ _).trans hk)
  have er : dot_S256x64_S2048x64_S256x2048_1_1_0_0_n_n.rhsIdx (ix2 r t) ((contrEquiv1 dot_S256x64_S2048x64_S256x2048_1_1_0_0_n_n 64 rfl rfl).symm d) = ix2 t d :=
    funext fun a => Fin.ext (by
      match a with
      | ⟨0, _⟩ => exact scores_rhs0 _ _
      | ⟨1, _⟩ => exact (scores_rhs1 _ _).trans hk)
  rw [el, er]

theorem values_lhs0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem values_lhs1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem values_rhs0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem values_rhs1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights times values: entry (r, d) is the sum over the 2048 positions t of lhs (r, t) · rhs (t, d). -/
theorem values_apply (lhs : FVec Ideal S256x2048 .bf16) (rhs : FVec Ideal S2048x64 .bf16) (r : Fin 256) (d : Fin 64) :
    matmul dot_S256x2048_S2048x64_S256x64_1_0_0_1_n_n none lhs rhs (constant S256x64 .f32 0x00000000#32) (ix2 r d)
      = ∑ t : Fin 2048, lhs (ix2 r t) * rhs (ix2 t d) := by
  refine (Ideal.matmul_constant_zero_apply dot_S256x2048_S2048x64_S256x64_1_0_0_1_n_n none lhs rhs (ix2 r d)).trans ?_
  rw [← Equiv.sum_comp (contrEquiv1 dot_S256x2048_S2048x64_S256x64_1_0_0_1_n_n 2048 rfl rfl).symm]
  refine Finset.sum_congr rfl fun t _ => ?_
  have hk := contrEquiv1_symm_val dot_S256x2048_S2048x64_S256x64_1_0_0_1_n_n 2048 rfl rfl t
  have el : dot_S256x2048_S2048x64_S256x64_1_0_0_1_n_n.lhsIdx (ix2 r d) ((contrEquiv1 dot_S256x2048_S2048x64_S256x64_1_0_0_1_n_n 2048 rfl rfl).symm t) = ix2 r t :=
    funext fun a => Fin.ext (by
      match a with
      | ⟨0, _⟩ => exact values_lhs0 _ _
      | ⟨1, _⟩ => exact (values_lhs1 _ _).trans hk)
  have er : dot_S256x2048_S2048x64_S256x64_1_0_0_1_n_n.rhsIdx (ix2 r d) ((contrEquiv1 dot_S256x2048_S2048x64_S256x64_1_0_0_1_n_n 2048 rfl rfl).symm t) = ix2 t d :=
    funext fun a => Fin.ext (by
      match a with
      | ⟨0, _⟩ => exact (values_rhs0 _ _).trans hk
      | ⟨1, _⟩ => exact values_rhs1 _ _)
  rw [el, er]

end Cert.KernelIdeal.Dots

end
-- ==== Proof.KRegion0.lean ====
/-
  Region 0: the output array after the region is the plain matrix product of its two input arrays.

  The grid has 4 points; point t reads rows 512 t … 512 t + 511 of the first array and the whole second array, and
  writes rows 512 t … 512 t + 511 of the output: entry (r, c) of that block is the sum over k of the first block's
  (r, k) times the second array's (k, c).  The four row blocks tile the output array.
-/
import proofs.«169011_j24979529793739_2_alg».proof.Proof.Gen.KernelIdeal.Frame
import proofs.«169011_j24979529793739_2_alg».proof.Proof.KDots
import proofs.«169011_j24979529793739_2_alg».proof.Proof.AttnSpec
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The two zero offsets of a whole-buffer access. -/
theorem zero_offsets : (![0, 0] : Fin 2 → Nat) = fun _ => 0 := funext fun a => by fin_cases a <;> rfl

/-- The matrix product of a [2048, 1024] array and a [1024, 1024] array, as an array. -/
abbrev prod (a : S2048x1024.Idx → EReal) (b : S1024x1024.Idx → EReal) : S2048x1024.Idx → EReal :=
  Cert.Attn.unmat (fun (s : Fin 2048) (j : Fin 1024) => ∑ k : Fin 1024, Cert.Attn.mat a s k * Cert.Attn.mat b k j)

/-- The body's payload at an entry: the block of rows times the matrix. -/
theorem payload_apply (x0 : Vec Ideal S512x1024 .f32) (x1 : Vec Ideal S1024x1024 .bf16) (r : Fin 512) (c : Fin 1024) :
    k0_pay1 x0 x1 (ix2 r c) = ∑ k : Fin 1024, x0 (ix2 r k) * x1 (ix2 k c) := by
  unfold k0_pay1
  rw [truncf_apply, shapeCast_self, Dots.proj_apply]
  rfl

/-- The printed index maps over the grid: point t reads row block t of the first array, the whole second array, and
    writes row block t of the output. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of the product from a block of rows: when x0 is rows 512 n … of a and x1 is b, the payload at j is the
    product at the index 512 n rows further down. -/
theorem payload_eq_prod (a : S2048x1024.Idx → EReal) (b : S1024x1024.Idx → EReal)
    (x0 : Vec Ideal S512x1024 .f32) (x1 : Vec Ideal S1024x1024 .bf16) (n : Nat)
    (h0 : ∀ (r : Fin 512) (k : Fin 1024) (i : S2048x1024.Idx), (i 0).val = n * 512 + r.val → (i 1).val = k.val → x0 (ix2 r k) = a i)
    (h1 : ∀ (k c : Fin 1024), x1 (ix2 k c) = b (ix2 k c))
    (j : S512x1024.Idx) (i : S2048x1024.Idx) (hi0 : (i 0).val = n * 512 + (j 0).val) (hi1 : (i 1).val = (j 1).val) :
    k0_pay1 x0 x1 j = prod a b i := by
  have hj : j = ix2 (⟨(j 0).val, idx2_lt0 j⟩ : Fin 512) (⟨(j 1).val, idx2_lt1 j⟩ : Fin 1024) :=
    funext fun d => match d with | ⟨0, _⟩ => rfl | ⟨1, _⟩ => rfl
  refine (congrArg (k0_pay1 x0 x1) hj).trans ((payload_apply x0 x1 _ _).trans ?_)
  show _ = ∑ k : Fin 1024, a (ix2 ⟨(i 0).val, idx2_lt0 i⟩ k) * b (ix2 k ⟨(i 1).val, idx2_lt1 i⟩)
  refine Finset.sum_congr rfl fun k _ => ?_
  rw [h0 ⟨(j 0).val, idx2_lt0 j⟩ k (ix2 ⟨(i 0).val, idx2_lt0 i⟩ k) hi0 rfl, h1]
  congr 2
  exact congrArg (ix2 k) (Fin.ext hi1.symm)

variable (V : (c : Dev nD) → (b : Ref sig .tc) → Buf (Elt Ideal) ((c : Thread nD τ).loc b))

/-- What point t writes back is block t of the product of the two arrays as the region finds them. -/
theorem flushed_eq (c : Dev nD) (t : Fin cfg0.N) :
    (dat0 (F := Ideal) V c).flushed 2 t
      = ((cfg0.win 2).blk t).view.read (Elt Ideal) (prod (V c main_arg0) (V c main_v1)) := by
  show (cfg0.win 2).cut (grid0.coords t) ((dat0 V c).after 2 t) = _
  rw [after0_2]
  unfold out0_2
  rw [View.canon_unit_zero zero_offsets]
  simp only [View.ld_unit_zero (S := S512x1024) zero_offsets, View.ld_unit_zero (S := S1024x1024) zero_offsets]
  obtain ⟨e00, e01, e10, e11, e20, e21⟩ := index_facts t
  funext j
  show k0_pay1 (iblk0 V c 0 t) (iblk0 V c 1 t) j = prod (V c main_arg0) (V c main_v1) (((cfg0.win 2).blk t).view.emb j)
  refine payload_eq_prod (V c main_arg0) (V c main_v1) _ _ t.val ?_ ?_ j _ ?_ ?_
  · intro r k i hi0 hi1
    unfold iblk0
    rw [View.read_apply]
    show V c main_arg0 (((cfg0.win 0).blk t).view.emb (ix2 r k)) = V c main_arg0 i
    congr 1
    funext d
    apply Fin.ext
    match d with
    | ⟨0, _⟩ => show win0_0.index t (0 : Fin 2) * 512 + 1 * r.val = (i 0).val; omega
    | ⟨1, _⟩ => show win0_0.index t (1 : Fin 2) * 1024 + 1 * k.val = (i 1).val; omega
  · intro k q
    unfold iblk0
    rw [View.read_apply]
    show V c main_v1 (((cfg0.win 1).blk t).view.emb (ix2 k q)) = V c main_v1 (ix2 k q)
    congr 1
    funext d
    apply Fin.ext
    match d with
    | ⟨0, _⟩ => show win0_1.index t (0 : Fin 2) * 1024 + 1 * k.val = k.val; omega
    | ⟨1, _⟩ => show win0_1.index t (1 : Fin 2) * 1024 + 1 * q.val = q.val; omega
  · show win0_2.index t (0 : Fin 2) * 512 + 1 * (j 0).val = t.val * 512 + (j 0).val; omega
  · show win0_2.index t (1 : Fin 2) * 1024 + 1 * (j 1).val = (j 1).val; omega

/-- An index of the output array is in point t's block iff each coordinate is in the block's range on its axis. -/
theorem mem_block (t : Fin cfg0.N) (i : S2048x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v8).slice (win0_2.rect t)).set ↔ _
  rw [View.set_slice_whole, Rect.mem_set_unit]
  exact Iff.rfl

/-- The four row blocks cover the output array: row r is in the block of point r / 512. -/
theorem cover (i : S2048x1024.Idx) :
    ∃ t : Fin cfg0.N, (cfg0.win 2).flush t = true ∧ i ∈ ((cfg0.win 2).blk t).view.set := by
  have hi0 : (i 0).val < 2048 := idx2_lt0 i
  have hi1 : (i 1).val < 1024 := idx2_lt1 i
  let t : Fin cfg0.N := ⟨(i 0).val / 512, by show (i 0).val / 512 < 4; omega⟩
  obtain ⟨e00, e01, e10, e11, e20, e21⟩ := index_facts t
  have ht : t.val = (i 0).val / 512 := rfl
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the region is the matrix product of the two input arrays as the region finds them. -/
theorem final (c : Dev nD) :
    (dat0 (F := Ideal) V c).arrAt 2 cfg0.N
      = (Cert.Attn.unmat (α := EReal) (fun (s : Fin 2048) (j : Fin 1024) =>
          ∑ k : Fin 1024, Cert.Attn.mat (α := EReal) (V c main_arg0 : S2048x1024.Idx → EReal) s k
            * Cert.Attn.mat (α := EReal) (V c main_v1 : S1024x1024.Idx → EReal) k j) : S2048x1024.Idx → EReal) :=
  (dat0 (F := Ideal) V c).arrAt_eq_of_cover 2 (prod (V c main_arg0) (V c main_v1)) (fun t _ => flushed_eq V c t) cover

end Cert.KernelIdeal.Reg0

end
-- ==== Proof.KRegion1.lean ====
/-
  Region 1: the output array after the region is the plain matrix product of its two input arrays.

  The grid has 4 points; point t reads rows 512 t … 512 t + 511 of the first array and the whole second array, and
  writes rows 512 t … 512 t + 511 of the output: entry (r, c) of that block is the sum over k of the first block's
  (r, k) times the second array's (k, c).  The four row blocks tile the output array.
-/
import proofs.«169011_j24979529793739_2_alg».proof.Proof.Gen.KernelIdeal.Frame
import proofs.«169011_j24979529793739_2_alg».proof.Proof.KDots
import proofs.«169011_j24979529793739_2_alg».proof.Proof.AttnSpec
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The two zero offsets of a whole-buffer access. -/
theorem zero_offsets : (![0, 0] : Fin 2 → Nat) = fun _ => 0 := funext fun a => by fin_cases a <;> rfl

/-- The matrix product of a [2048, 1024] array and a [1024, 1024] array, as an array. -/
abbrev prod (a : S2048x1024.Idx → EReal) (b : S1024x1024.Idx → EReal) : S2048x1024.Idx → EReal :=
  Cert.Attn.unmat (fun (s : Fin 2048) (j : Fin 1024) => ∑ k : Fin 1024, Cert.Attn.mat a s k * Cert.Attn.mat b k j)

/-- The body's payload at an entry: the block of rows times the matrix. -/
theorem payload_apply (x0 : Vec Ideal S512x1024 .f32) (x1 : Vec Ideal S1024x1024 .bf16) (r : Fin 512) (c : Fin 1024) :
    k1_pay1 x0 x1 (ix2 r c) = ∑ k : Fin 1024, x0 (ix2 r k) * x1 (ix2 k c) := by
  unfold k1_pay1
  rw [truncf_apply, shapeCast_self, Dots.proj_apply]
  rfl

/-- The printed index maps over the grid: point t reads row block t of the first array, the whole second array, and
    writes row block t of the output. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block of the product from a block of rows: when x0 is rows 512 n … of a and x1 is b, the payload at j is the
    product at the index 512 n rows further down. -/
theorem payload_eq_prod (a : S2048x1024.Idx → EReal) (b : S1024x1024.Idx → EReal)
    (x0 : Vec Ideal S512x1024 .f32) (x1 : Vec Ideal S1024x1024 .bf16) (n : Nat)
    (h0 : ∀ (r : Fin 512) (k : Fin 1024) (i : S2048x1024.Idx), (i 0).val = n * 512 + r.val → (i 1).val = k.val → x0 (ix2 r k) = a i)
    (h1 : ∀ (k c : Fin 1024), x1 (ix2 k c) = b (ix2 k c))
    (j : S512x1024.Idx) (i : S2048x1024.Idx) (hi0 : (i 0).val = n * 512 + (j 0).val) (hi1 : (i 1).val = (j 1).val) :
    k1_pay1 x0 x1 j = prod a b i := by
  have hj : j = ix2 (⟨(j 0).val, idx2_lt0 j⟩ : Fin 512) (⟨(j 1).val, idx2_lt1 j⟩ : Fin 1024) :=
    funext fun d => match d with | ⟨0, _⟩ => rfl | ⟨1, _⟩ => rfl
  refine (congrArg (k1_pay1 x0 x1) hj).trans ((payload_apply x0 x1 _ _).trans ?_)
  show _ = ∑ k : Fin 1024, a (ix2 ⟨(i 0).val, idx2_lt0 i⟩ k) * b (ix2 k ⟨(i 1).val, idx2_lt1 i⟩)
  refine Finset.sum_congr rfl fun k _ => ?_
  rw [h0 ⟨(j 0).val, idx2_lt0 j⟩ k (ix2 ⟨(i 0).val, idx2_lt0 i⟩ k) hi0 rfl, h1]
  congr 2
  exact congrArg (ix2 k) (Fin.ext hi1.symm)

variable (V : (c : Dev nD) → (b : Ref sig .tc) → Buf (Elt Ideal) ((c : Thread nD τ).loc b))

/-- What point t writes back is block t of the product of the two arrays as the region finds them. -/
theorem flushed_eq (c : Dev nD) (t : Fin cfg1.N) :
    (dat1 (F := Ideal) V c).flushed 2 t
      = ((cfg1.win 2).blk t).view.read (Elt Ideal) (prod (V c main_arg1) (V c main_v3)) := by
  show (cfg1.win 2).cut (grid1.coords t) ((dat1 V c).after 2 t) = _
  rw [after1_2]
  unfold out1_2
  rw [View.canon_unit_zero zero_offsets]
  simp only [View.ld_unit_zero (S := S512x1024) zero_offsets, View.ld_unit_zero (S := S1024x1024) zero_offsets]
  obtain ⟨e00, e01, e10, e11, e20, e21⟩ := index_facts t
  funext j
  show k1_pay1 (iblk1 V c 0 t) (iblk1 V c 1 t) j = prod (V c main_arg1) (V c main_v3) (((cfg1.win 2).blk t).view.emb j)
  refine payload_eq_prod (V c main_arg1) (V c main_v3) _ _ t.val ?_ ?_ j _ ?_ ?_
  · intro r k i hi0 hi1
    unfold iblk1
    rw [View.read_apply]
    show V c main_arg1 (((cfg1.win 0).blk t).view.emb (ix2 r k)) = V c main_arg1 i
    congr 1
    funext d
    apply Fin.ext
    match d with
    | ⟨0, _⟩ => show win1_0.index t (0 : Fin 2) * 512 + 1 * r.val = (i 0).val; omega
    | ⟨1, _⟩ => show win1_0.index t (1 : Fin 2) * 1024 + 1 * k.val = (i 1).val; omega
  · intro k q
    unfold iblk1
    rw [View.read_apply]
    show V c main_v3 (((cfg1.win 1).blk t).view.emb (ix2 k q)) = V c main_v3 (ix2 k q)
    congr 1
    funext d
    apply Fin.ext
    match d with
    | ⟨0, _⟩ => show win1_1.index t (0 : Fin 2) * 1024 + 1 * k.val = k.val; omega
    | ⟨1, _⟩ => show win1_1.index t (1 : Fin 2) * 1024 + 1 * q.val = q.val; omega
  · show win1_2.index t (0 : Fin 2) * 512 + 1 * (j 0).val = t.val * 512 + (j 0).val; omega
  · show win1_2.index t (1 : Fin 2) * 1024 + 1 * (j 1).val = (j 1).val; omega

/-- An index of the output array is in point t's block iff each coordinate is in the block's range on its axis. -/
theorem mem_block (t : Fin cfg1.N) (i : S2048x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v9).slice (win1_2.rect t)).set ↔ _
  rw [View.set_slice_whole, Rect.mem_set_unit]
  exact Iff.rfl

/-- The four row blocks cover the output array: row r is in the block of point r / 512. -/
theorem cover (i : S2048x1024.Idx) :
    ∃ t : Fin cfg1.N, (cfg1.win 2).flush t = true ∧ i ∈ ((cfg1.win 2).blk t).view.set := by
  have hi0 : (i 0).val < 2048 := idx2_lt0 i
  have hi1 : (i 1).val < 1024 := idx2_lt1 i
  let t : Fin cfg1.N := ⟨(i 0).val / 512, by show (i 0).val / 512 < 4; omega⟩
  obtain ⟨e00, e01, e10, e11, e20, e21⟩ := index_facts t
  have ht : t.val = (i 0).val / 512 := rfl
  refine ⟨t, flush1_2 t, ?_⟩
  rw [mem_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- The output array after the region is the matrix product of the two input arrays as the region finds them. -/
theorem final (c : Dev nD) :
    (dat1 (F := Ideal) V c).arrAt 2 cfg1.N
      = (Cert.Attn.unmat (α := EReal) (fun (s : Fin 2048) (j : Fin 1024) =>
          ∑ k : Fin 1024, Cert.Attn.mat (α := EReal) (V c main_arg1 : S2048x1024.Idx → EReal) s k
            * Cert.Attn.mat (α := EReal) (V c main_v3 : S1024x1024.Idx → EReal) k j) : S2048x1024.Idx → EReal) :=
  (dat1 (F := Ideal) V c).arrAt_eq_of_cover 2 (prod (V c main_arg1) (V c main_v3)) (fun t _ => flushed_eq V c t) cover

end Cert.KernelIdeal.Reg1

end
-- ==== Proof.KRegion2.lean ====
/-
  Region 2: the output array after the region is the plain matrix product of its two input arrays.

  The grid has 4 points; point t reads rows 512 t … 512 t + 511 of the first array and the whole second array, and
  writes rows 512 t … 512 t + 511 of the output: entry (r, c) of that block is the sum over k of the first block's
  (r, k) times the second array's (k, c).  The four row blocks tile the output array.
-/
import proofs.«169011_j24979529793739_2_alg».proof.Proof.Gen.KernelIdeal.Frame
import proofs.«169011_j24979529793739_2_alg».proof.Proof.KDots
import proofs.«169011_j24979529793739_2_alg».proof.Proof.AttnSpec
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The two zero offsets of a whole-buffer access. -/
theorem zero_offsets : (![0, 0] : Fin 2 → Nat) = fun _ => 0 := funext fun a => by fin_cases a <;> rfl

/-- The matrix product of a [2048, 1024] array and a [1024, 1024] array, as an array. -/
abbrev prod (a : S2048x1024.Idx → EReal) (b : S1024x1024.Idx → EReal) : S2048x1024.Idx → EReal :=
  Cert.Attn.unmat (fun (s : Fin 2048) (j : Fin 1024) => ∑ k : Fin 1024, Cert.Attn.mat a s k * Cert.Attn.mat b k j)

/-- The body's payload at an entry: the block of rows times the matrix. -/
theorem payload_apply (x0 : Vec Ideal S512x1024 .f32) (x1 : Vec Ideal S1024x1024 .bf16) (r : Fin 512) (c : Fin 1024) :
    k2_pay1 x0 x1 (ix2 r c) = ∑ k : Fin 1024, x0 (ix2 r k) * x1 (ix2 k c) := by
  unfold k2_pay1
  rw [truncf_apply, shapeCast_self, Dots.proj_apply]
  rfl

/-- The printed index maps over the grid: point t reads row block t of the first array, the whole second array, and
    writes row block t of the output. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of the product from a block of rows: when x0 is rows 512 n … of a and x1 is b, the payload at j is the
    product at the index 512 n rows further down. -/
theorem payload_eq_prod (a : S2048x1024.Idx → EReal) (b : S1024x1024.Idx → EReal)
    (x0 : Vec Ideal S512x1024 .f32) (x1 : Vec Ideal S1024x1024 .bf16) (n : Nat)
    (h0 : ∀ (r : Fin 512) (k : Fin 1024) (i : S2048x1024.Idx), (i 0).val = n * 512 + r.val → (i 1).val = k.val → x0 (ix2 r k) = a i)
    (h1 : ∀ (k c : Fin 1024), x1 (ix2 k c) = b (ix2 k c))
    (j : S512x1024.Idx) (i : S2048x1024.Idx) (hi0 : (i 0).val = n * 512 + (j 0).val) (hi1 : (i 1).val = (j 1).val) :
    k2_pay1 x0 x1 j = prod a b i := by
  have hj : j = ix2 (⟨(j 0).val, idx2_lt0 j⟩ : Fin 512) (⟨(j 1).val, idx2_lt1 j⟩ : Fin 1024) :=
    funext fun d => match d with | ⟨0, _⟩ => rfl | ⟨1, _⟩ => rfl
  refine (congrArg (k2_pay1 x0 x1) hj).trans ((payload_apply x0 x1 _ _).trans ?_)
  show _ = ∑ k : Fin 1024, a (ix2 ⟨(i 0).val, idx2_lt0 i⟩ k) * b (ix2 k ⟨(i 1).val, idx2_lt1 i⟩)
  refine Finset.sum_congr rfl fun k _ => ?_
  rw [h0 ⟨(j 0).val, idx2_lt0 j⟩ k (ix2 ⟨(i 0).val, idx2_lt0 i⟩ k) hi0 rfl, h1]
  congr 2
  exact congrArg (ix2 k) (Fin.ext hi1.symm)

variable (V : (c : Dev nD) → (b : Ref sig .tc) → Buf (Elt Ideal) ((c : Thread nD τ).loc b))

/-- What point t writes back is block t of the product of the two arrays as the region finds them. -/
theorem flushed_eq (c : Dev nD) (t : Fin cfg2.N) :
    (dat2 (F := Ideal) V c).flushed 2 t
      = ((cfg2.win 2).blk t).view.read (Elt Ideal) (prod (V c main_arg2) (V c main_v5)) := by
  show (cfg2.win 2).cut (grid2.coords t) ((dat2 V c).after 2 t) = _
  rw [after2_2]
  unfold out2_2
  rw [View.canon_unit_zero zero_offsets]
  simp only [View.ld_unit_zero (S := S512x1024) zero_offsets, View.ld_unit_zero (S := S1024x1024) zero_offsets]
  obtain ⟨e00, e01, e10, e11, e20, e21⟩ := index_facts t
  funext j
  show k2_pay1 (iblk2 V c 0 t) (iblk2 V c 1 t) j = prod (V c main_arg2) (V c main_v5) (((cfg2.win 2).blk t).view.emb j)
  refine payload_eq_prod (V c main_arg2) (V c main_v5) _ _ t.val ?_ ?_ j _ ?_ ?_
  · intro r k i hi0 hi1
    unfold iblk2
    rw [View.read_apply]
    show V c main_arg2 (((cfg2.win 0).blk t).view.emb (ix2 r k)) = V c main_arg2 i
    congr 1
    funext d
    apply Fin.ext
    match d with
    | ⟨0, _⟩ => show win2_0.index t (0 : Fin 2) * 512 + 1 * r.val = (i 0).val; omega
    | ⟨1, _⟩ => show win2_0.index t (1 : Fin 2) * 1024 + 1 * k.val = (i 1).val; omega
  · intro k q
    unfold iblk2
    rw [View.read_apply]
    show V c main_v5 (((cfg2.win 1).blk t).view.emb (ix2 k q)) = V c main_v5 (ix2 k q)
    congr 1
    funext d
    apply Fin.ext
    match d with
    | ⟨0, _⟩ => show win2_1.index t (0 : Fin 2) * 1024 + 1 * k.val = k.val; omega
    | ⟨1, _⟩ => show win2_1.index t (1 : Fin 2) * 1024 + 1 * q.val = q.val; omega
  · show win2_2.index t (0 : Fin 2) * 512 + 1 * (j 0).val = t.val * 512 + (j 0).val; omega
  · show win2_2.index t (1 : Fin 2) * 1024 + 1 * (j 1).val = (j 1).val; omega

/-- An index of the output array is in point t's block iff each coordinate is in the block's range on its axis. -/
theorem mem_block (t : Fin cfg2.N) (i : S2048x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v10).slice (win2_2.rect t)).set ↔ _
  rw [View.set_slice_whole, Rect.mem_set_unit]
  exact Iff.rfl

/-- The four row blocks cover the output array: row r is in the block of point r / 512. -/
theorem cover (i : S2048x1024.Idx) :
    ∃ t : Fin cfg2.N, (cfg2.win 2).flush t = true ∧ i ∈ ((cfg2.win 2).blk t).view.set := by
  have hi0 : (i 0).val < 2048 := idx2_lt0 i
  have hi1 : (i 1).val < 1024 := idx2_lt1 i
  let t : Fin cfg2.N := ⟨(i 0).val / 512, by show (i 0).val / 512 < 4; omega⟩
  obtain ⟨e00, e01, e10, e11, e20, e21⟩ := index_facts t
  have ht : t.val = (i 0).val / 512 := rfl
  refine ⟨t, flush2_2 t, ?_⟩
  rw [mem_block]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after the region is the matrix product of the two input arrays as the region finds them. -/
theorem final (c : Dev nD) :
    (dat2 (F := Ideal) V c).arrAt 2 cfg2.N
      = (Cert.Attn.unmat (α := EReal) (fun (s : Fin 2048) (j : Fin 1024) =>
          ∑ k : Fin 1024, Cert.Attn.mat (α := EReal) (V c main_arg2 : S2048x1024.Idx → EReal) s k
            * Cert.Attn.mat (α := EReal) (V c main_v5 : S1024x1024.Idx → EReal) k j) : S2048x1024.Idx → EReal) :=
  (dat2 (F := Ideal) V c).arrAt_eq_of_cover 2 (prod (V c main_arg2) (V c main_v5)) (fun t _ => flushed_eq V c t) cover

end Cert.KernelIdeal.Reg2

end
-- ==== Proof.KAttnDefs.lean ====
/-
  What one grid point of the attention kernel leaves in its output block, and the mask as the kernel sees it.

  A grid point holds a block of 256 query rows (all 1024 features), every key row, every value row, and the block's
  256 rows of the mask widened to 32-bit words; a mask word counts as set when it is not zero.  Entry (r, j) of the
  output block is the attention of feature j's head: scores of query row r against every key row over the head's 64
  features, weights from the scores, weighted sum of the values' feature j, divided by the sum of the weights.
-/
import proofs.«169011_j24979529793739_2_alg».proof.Proof.AttnSpec

noncomputable section

namespace Cert.Attn

open Idealize.ShloMosaic Idealize.ShloMosaic.ValueIdx

/-- A 32-bit mask word read as one bit: set when the word is not zero. -/
def msk32 {a b : ℕ} (x : Fin a → Fin b → BitVec 32) : Fin a → Fin b → BitVec 1 := fun s t => IntOp.cmpi .ne (x s t) 0#32

/-- Widening a mask bit to a word and asking "not zero" gives the bit back. -/
theorem msk32_setWidth {a b : ℕ} (x : Fin a → Fin b → BitVec 1) : msk32 (fun s t => (x s t).setWidth 32) = x := by
  funext s t
  show IntOp.cmpi .ne ((x s t).setWidth 32) 0#32 = x s t
  rcases BitVec.eq_zero_or_eq_one (x s t) with h | h <;> rw [h] <;> decide

/-- Entry (r, j) of one grid point's output block, from the point's blocks on plain coordinates: `M` the block's
    mask bits, `q` its query rows, `k` and `v` all key and value rows. -/
def blockOut (M : Fin 256 → Fin 2048 → BitVec 1) (q : Fin 256 → Fin 1024 → EReal) (k v : Fin 2048 → Fin 1024 → EReal)
    (r : Fin 256) (j : Fin 1024) : EReal :=
  headK (fun t : Fin 2048 => Scalar.select (M r t) negBig ((∑ d : Fin 64, q r (col (headOf j) d) * k t (col (headOf j) d)) * scale))
    (fun t : Fin 2048 => v t j)

end Cert.Attn

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.LibRowReductions.lean ====
/-
  Row reductions of a two-axis array, read at a row.

  Over the extended reals a maximum taken along the second axis of an [n0, n1] array, at row p, is the fold of `max`
  from the starting value over the row's entries v (p, 0), …, v (p, n1 - 1), in any order; a sum along that axis is the
  starting value plus the sum of the row's entries. This is so both for the vector unit's reduction (whose
  accumulator is the operation's neutral value) and for the host's `reduce` (whose starting value is an operand).
-/
import Idealize.ShloMosaic.Lib.ValueIdx
import Idealize.ShloMosaic.PureOps.Ideal.Laws
import Idealize.ShloMosaic.PureOps.Reduce

namespace Cert.Lib.RowReductions

open Idealize.ShloMosaic Idealize.ShloMosaic.ValueIdx

/-- The reduced index (p) with coordinate k put back on the second axis is (p, k). -/
theorem lift_axis1 {n0 n1 : ℕ} (h : (⟨2, ![n0, n1]⟩ : Shape).Reduces [1] ⟨1, ![n0]⟩) (p : Fin n0) (k : Fin n1) :
    h.lift (ix1 p) k = ix2 p k :=
  funext fun c => Fin.ext (by fin_cases c <;> rfl)

/-- The vector unit's maximum over the second axis, at row `p`: the fold of `max` from the accumulator's value over
    the row. -/
theorem max_axis1 {n0 n1 : ℕ} (v : FVec Ideal (⟨2, ![n0, n1]⟩ : Shape) .f32) (acc : BitVec 32)
    (h : (⟨2, ![n0, n1]⟩ : Shape).Reduces [1] ⟨1, ![n0]⟩) (hφ : FKind.Formats .f32)
    (hacc : acc = FKind.maximumf.neutral .f32 hφ) (p : Fin n0) :
    multiReduction .maximumf [1] ⟨1, ![n0]⟩ v acc h hφ hacc (ix1 p)
      = (Finset.univ : Finset (Fin n1)).fold max (FloatOps.ofBits .f32 acc) (fun k => v (ix2 p k)) :=
  (Ideal.multiReduction_maximumf_single v acc h hφ hacc (ix1 p)).trans
    (congrArg (fun f => (Finset.univ : Finset (Fin n1)).fold max (FloatOps.ofBits .f32 acc) f)
      (funext fun k => congrArg v (lift_axis1 h p k)))

/-- The host's `reduce` with a maximum body over the second axis, at row `p`: the fold of `max` from the starting
    value over the row. -/
theorem hostMax_axis1 {n0 n1 : ℕ} {u : Shape} (x : FVec Ideal (⟨2, ![n0, n1]⟩ : Shape) .f32) (init : u.Idx → Ideal .f32)
    (h' : (⟨2, ![n0, n1]⟩ : Shape).ReducesTo [1] ⟨1, ![n0]⟩) (h : (⟨2, ![n0, n1]⟩ : Shape).Reduces [1] ⟨1, ![n0]⟩)
    (hu : 0 < u.numel) (p : Fin n0) :
    Host.reduce FloatOps.maximumf x init h' hu (ix1 p)
      = (Finset.univ : Finset (Fin n1)).fold max (init (Shape.Idx.first hu)) (fun k => x (ix2 p k)) := by
  rw [Host.reduce_eq_fold_single FloatOps.maximumf x init h' h hu]
  exact congrArg (fun f => (Finset.univ : Finset (Fin n1)).fold max (init (Shape.Idx.first hu)) f)
    (funext fun k => congrArg x (lift_axis1 h p k))

/-- The host's sum over the second axis, at row `p`: the starting value plus the sum of the row. -/
theorem hostSum_axis1 {n0 n1 : ℕ} {u : Shape} (x : FVec Ideal (⟨2, ![n0, n1]⟩ : Shape) .f32) (init : u.Idx → Ideal .f32)
    (h' : (⟨2, ![n0, n1]⟩ : Shape).ReducesTo [1] ⟨1, ![n0]⟩) (h : (⟨2, ![n0, n1]⟩ : Shape).Reduces [1] ⟨1, ![n0]⟩)
    (hu : 0 < u.numel) (p : Fin n0) :
    Host.reduceAdd x init h' hu (ix1 p) = init (Shape.Idx.first hu) + ∑ k : Fin n1, x (ix2 p k) := by
  show Ideal.hostReduceAdd _ _ _ (ix1 p) = _
  rw [Ideal.hostReduceAdd_single h' h]
  exact congrArg (init (Shape.Idx.first hu) + ·) (Finset.sum_congr rfl fun k _ => congrArg x (lift_axis1 h p k))

end Cert.Lib.RowReductions
-- ==== Proof.KHead.lean ====
/-
  One head of the attention kernel's body, read at an entry.

  For one head the kernel forms the scores of 256 query rows against 2048 key rows (inner products over the head's 64
  features, times 1/8, replaced by a large negative constant where the mask is set), takes each row's maximum, turns the
  scores into weights exp (score − row maximum), sums each row's weights, multiplies the weights into the 2048 value rows
  and divides each entry of that product by its row's sum of weights.  Over the extended reals the narrowing format
  changes are the identity, so entry (r, d) of the result is (Σ_t weight (r, t) · value (t, d)) / Σ_t weight (r, t).
-/
import proofs.«169011_j24979529793739_2_alg».proof.Proof.Gen.KernelIdeal.Skeleton
import proofs.«169011_j24979529793739_2_alg».proof.Proof.KDots
import proofs.«169011_j24979529793739_2_alg».proof.Proof.LibKeepdims
import proofs.«169011_j24979529793739_2_alg».proof.Proof.LibRowReductions
import proofs.«169011_j24979529793739_2_alg».proof.Proof.AttnSpec

noncomputable section

namespace Cert.KernelIdeal.Head

open Cert.KernelIdeal Cert.KernelIdeal.Gen Idealize.ShloMosaic Idealize.ShloMosaic.ValueIdx

/-- The word 0xFF800000 encodes −∞. -/
theorem ofBits_negInf : FloatOps.ofBits (F := Ideal) .f32 0xFF800000#32 = (⊥ : EReal) := by
  show Ideal.ofBits .f32 0xFF800000#32 = ⊥
  simp [Ideal.ofBits, Ideal.ieee]

/-- A row's maximum, kept as a column and spread along the row: at (p, c) it is the fold of `max` from −∞ over row p. -/
theorem rowMax_apply (x : FVec Ideal S256x2048 .f32) (p : Fin 256) (c : Fin 2048) :
    broadcastTo S256x2048
        (shapeCast S256x1 (multiReduction .maximumf [1] S256 x 0xFF800000#32 reduces_S256x2048_S256 (.inl rfl) rfl)
          shapeCasts_S256_S256x1)
        broadcasts_S256x1_S256x2048 (ix2 p c)
      = Cert.Attn.rowmax (fun k : Fin 2048 => x (ix2 p k)) :=
  (Cert.Rbf.Keepdims.broadcastTo_a1_ab_apply _ broadcasts_S256x1_S256x2048 p c).trans
    ((Cert.Rbf.Keepdims.shapeCast_a_a1_apply _ shapeCasts_S256_S256x1 p (0 : Fin 1)).trans
      ((Cert.Lib.RowReductions.max_axis1 x 0xFF800000#32 reduces_S256x2048_S256 (.inl rfl) rfl p).trans
        (congrArg (fun b => (Finset.univ : Finset (Fin 2048)).fold max b (fun k : Fin 2048 => x (ix2 p k))) ofBits_negInf)))

/-- A row's sum, kept as a column and spread along 64 columns: at (p, c) it is the sum of row p. -/
theorem rowSum_apply (x : FVec Ideal S256x2048 .f32) (p : Fin 256) (c : Fin 64) :
    broadcastTo S256x64
        (shapeCast S256x1 (multiReduction .add [1] S256 x 0x00000000#32 reduces_S256x2048_S256 (.inl rfl) rfl)
          shapeCasts_S256_S256x1)
        broadcasts_S256x1_S256x64 (ix2 p c)
      = ∑ k : Fin 2048, x (ix2 p k) :=
  (Cert.Rbf.Keepdims.broadcastTo_a1_ab_apply _ broadcasts_S256x1_S256x64 p c).trans
    ((Cert.Rbf.Keepdims.shapeCast_a_a1_apply _ shapeCasts_S256_S256x1 p (0 : Fin 1)).trans
      ((Ideal.multiReduction_add_single x 0x00000000#32 reduces_S256x2048_S256 (.inl rfl) rfl (ix1 p)).trans
        (Finset.sum_congr rfl fun k _ => congrArg x (Cert.Lib.RowReductions.lift_axis1 reduces_S256x2048_S256 p k))))

/-- The masked, scaled scores of one head at (r, t): the inner product of query row r and key row t over the 64
    features, times 1/8, or the large negative constant where the mask is set. -/
theorem scores_masked_apply (M : IVec S256x2048 1) (qh : FVec Ideal S256x64 .bf16) (kh : FVec Ideal S2048x64 .bf16)
    (r : Fin 256) (t : Fin 2048) :
    select M (broadcast S256x2048 (Scalar.ofBits (F := Ideal) .f32 0xF149F2CA#32))
        (mulf
          (matmul dot_S256x64_S2048x64_S256x2048_1_1_0_0_n_n none (shapeCast S256x64 qh shapeCasts_S256x64_S256x64)
            (shapeCast S2048x64 kh shapeCasts_S2048x64_S2048x64) (constant S256x2048 .f32 0x00000000#32))
          (broadcast S256x2048 (Scalar.ofBits (F := Ideal) .f32 0x3E000000#32)))
        (ix2 r t)
      = Scalar.select (M (ix2 r t)) Cert.Attn.negBig
          ((∑ d' : Fin 64, qh (ix2 r d') * kh (ix2 t d')) * Cert.Attn.scale) := by
  rw [shapeCast_self, shapeCast_self]
  exact congrArg (fun z => Scalar.select (M (ix2 r t)) Cert.Attn.negBig (z * Cert.Attn.scale))
    (Dots.scores_apply qh kh r t)

/-- The weights exp (score − row maximum) of a [256, 2048] array of scores, as the kernel forms them. -/
def weights (x : FVec Ideal S256x2048 .f32) : FVec Ideal S256x2048 .f32 :=
  exp (subf x
    (broadcastTo S256x2048
      (shapeCast S256x1 (multiReduction .maximumf [1] S256 x 0xFF800000#32 reduces_S256x2048_S256 (.inl rfl) rfl)
        shapeCasts_S256_S256x1)
      broadcasts_S256x1_S256x2048))

/-- A weight at (r, t) is exp of the score minus the maximum of row r. -/
theorem weights_apply (x : FVec Ideal S256x2048 .f32) (r : Fin 256) (t : Fin 2048) :
    weights x (ix2 r t) = Cert.Attn.wt (fun k : Fin 2048 => x (ix2 r k)) t :=
  congrArg (fun m => Ideal.exp (x (ix2 r t) - m)) (rowMax_apply x r t)

/-- From the scores on: the weights multiplied into the value rows, each entry divided by its row's sum of weights. -/
theorem tail_apply (x : FVec Ideal S256x2048 .f32) (vh : FVec Ideal S2048x64 .bf16) (r : Fin 256) (d : Fin 64) :
    (truncf .bf16
        (divf
          (matmul dot_S256x2048_S2048x64_S256x64_1_0_0_1_n_n none (truncf .bf16 (weights x) bitsLt_bf16_f32)
            (shapeCast S2048x64 vh shapeCasts_S2048x64_S2048x64) (constant S256x64 .f32 0x00000000#32))
          (broadcastTo S256x64
            (shapeCast S256x1 (multiReduction .add [1] S256 (weights x) 0x00000000#32 reduces_S256x2048_S256 (.inl rfl) rfl)
              shapeCasts_S256_S256x1)
            broadcasts_S256x1_S256x64))
        bitsLt_bf16_f32 : FVec Ideal S256x64 .bf16) (ix2 r d)
      = Cert.Attn.headK (fun t : Fin 2048 => x (ix2 r t)) (fun t : Fin 2048 => vh (ix2 t d)) := by
  rw [shapeCast_self]
  exact congrArg₂ Ideal.div
    ((Dots.values_apply _ vh r d).trans
      (Finset.sum_congr rfl fun t _ => congrArg (· * vh (ix2 t d)) (weights_apply x r t)))
    ((rowSum_apply (weights x) r d).trans (Finset.sum_congr rfl fun t _ => weights_apply x r t))

/-- One head of the kernel's body at entry (r, d): the weighted sum of the value rows' feature d, normalised after the
    sum, for the masked scaled scores of query row r. -/
theorem head_apply (M : IVec S256x2048 1) (qh : Vec Ideal S256x64 .bf16) (kh vh : Vec Ideal S2048x64 .bf16)
    (r : Fin 256) (d : Fin 64) :
    k3_pay7 (F := Ideal) M qh kh vh (ix2 r d)
      = Cert.Attn.headK
          (fun t : Fin 2048 => Scalar.select (M (ix2 r t)) Cert.Attn.negBig
            ((∑ d' : Fin 64, qh (ix2 r d') * kh (ix2 t d')) * Cert.Attn.scale))
          (fun t : Fin 2048 => vh (ix2 t d)) := by
  unfold k3_pay7
  exact (tail_apply _ vh r d).trans
    (congrArg (fun f => Cert.Attn.headK f (fun t : Fin 2048 => vh (ix2 t d)))
      (funext fun t => scores_masked_apply M qh kh r t))

end Cert.KernelIdeal.Head

end
-- ==== Proof.KAttnBlock.lean ====
/-
  One grid point of the attention kernel: its output block as one function of the point's input blocks.

  The body handles the 16 heads one after the other.  Head h reads the band of 64 features [64 h, 64 h + 64) of the
  query block, of the keys and of the values, computes the head's attention for the block's 256 rows, and stores the
  [256, 64] result into the same band of the output block.  The 16 bands tile the output block, and each stored
  band is the band of ONE function of the output index: entry (r, j) is the attention of head j / 64 at feature j.
-/
import proofs.«169011_j24979529793739_2_alg».proof.Proof.Gen.KernelIdeal.Frame
import proofs.«169011_j24979529793739_2_alg».proof.Proof.KAttnDefs
import proofs.«169011_j24979529793739_2_alg».proof.Proof.KHead
import Idealize.ShloMosaic.Lib.Pipeline.Value
import Idealize.ShloMosaic.Lib.ValueIdx

noncomputable section

namespace Cert.KernelIdeal.AttnBlock

open Cert.KernelIdeal Cert.KernelIdeal.Gen Idealize.ShloMosaic Idealize.ShloMosaic.ValueIdx Cert.Attn

/-- Entry (r, d) of the band of 64 features starting at `off` of a [256, 1024] block is entry (r, off + d) of the block. -/
theorem band256 (off : ℕ) (inb : ∀ a, (![0, off] : Fin 2 → ℕ) a + S256x64.size a ≤ S256x1024.size a) (r : Fin 256) (d : Fin 64)
    (h : off + d.val < 1024) :
    (Rect.unit (s := S256x1024) ![0, off] S256x64.size inb).emb (ix2 r d : S256x64.Idx) = ix2 r ⟨off + d.val, h⟩ :=
  funext fun a => Fin.ext (by
    match a with
    | ⟨0, _⟩ => show 0 + 1 * r.val = r.val; omega
    | ⟨1, _⟩ => show off + 1 * d.val = off + d.val; omega)

/-- The same for a band of a [2048, 1024] array. -/
theorem band2048 (off : ℕ) (inb : ∀ a, (![0, off] : Fin 2 → ℕ) a + S2048x64.size a ≤ S2048x1024.size a) (p : Fin 2048) (d : Fin 64)
    (h : off + d.val < 1024) :
    (Rect.unit (s := S2048x1024) ![0, off] S2048x64.size inb).emb (ix2 p d : S2048x64.Idx) = ix2 p ⟨off + d.val, h⟩ :=
  funext fun a => Fin.ext (by
    match a with
    | ⟨0, _⟩ => show 0 + 1 * p.val = p.val; omega
    | ⟨1, _⟩ => show off + 1 * d.val = off + d.val; omega)

/-- The head that reads the bands at `off` (a multiple of 64) stores the band at `off` of `blockOut`. -/
theorem piece (M : IVec S256x2048 1) (x0 : Vec Ideal S256x1024 .bf16) (x1 x2 : Vec Ideal S2048x1024 .bf16)
    (off : ℕ) (hoff : off % 64 = 0) (hlt : off + 64 ≤ 1024)
    (inbq : ∀ a, (![0, off] : Fin 2 → ℕ) a + S256x64.size a ≤ S256x1024.size a)
    (inbk : ∀ a, (![0, off] : Fin 2 → ℕ) a + S2048x64.size a ≤ S2048x1024.size a) (x : S256x64.Idx) :
    k3_pay7 (F := Ideal) M (View.ld x0 (Rect.unit (s := S256x1024) ![0, off] S256x64.size inbq))
        (View.ld x1 (Rect.unit (s := S2048x1024) ![0, off] S2048x64.size inbk))
        (View.ld x2 (Rect.unit (s := S2048x1024) ![0, off] S2048x64.size inbk)) x
      = unmat (blockOut (mat M) (mat x0) (mat x1) (mat x2)) ((Rect.unit (s := S256x1024) ![0, off] S256x64.size inbq).emb x) := by
  obtain ⟨r, d, rfl⟩ : ∃ (r : Fin 256) (d : Fin 64), x = ix2 r d := ⟨x 0, x 1, eq_ix2 x⟩
  have hd := d.isLt
  refine (Cert.KernelIdeal.Head.head_apply M _ _ _ r d).trans ?_
  rw [band256 off inbq r d (by omega), unmat_ix2]
  unfold blockOut
  have hh : headOf ⟨off + d.val, by omega⟩ = ⟨off / 64, by omega⟩ := Fin.ext (by show (off + d.val) / 64 = off / 64; omega)
  have hcol : ∀ d' : Fin 64, col ⟨off / 64, by omega⟩ d' = ⟨off + d'.val, by have := d'.isLt; omega⟩ :=
    fun d' => Fin.ext (by show off / 64 * 64 + d'.val = off + d'.val; omega)
  rw [hh]
  simp only [hcol]
  refine congrArg₂ headK (funext fun t => ?_) (funext fun t => ?_)
  · refine congrArg (fun z => Scalar.select (M (ix2 r t)) negBig (z * scale)) (Finset.sum_congr rfl fun d' _ => ?_)
    have hd' := d'.isLt
    show x0 ((Rect.unit (s := S256x1024) ![0, off] S256x64.size inbq).emb (ix2 r d' : S256x64.Idx))
        * x1 ((Rect.unit (s := S2048x1024) ![0, off] S2048x64.size inbk).emb (ix2 t d' : S2048x64.Idx)) = _
    rw [band256 off inbq r d' (by omega), band2048 off inbk t d' (by omega)]
    rfl
  · show x2 ((Rect.unit (s := S2048x1024) ![0, off] S2048x64.size inbk).emb (ix2 t d : S2048x64.Idx)) = _
    rw [band2048 off inbk t d (by omega)]
    rfl

/-- What the body leaves in the output window's buffer is `Cert.Attn.blockOut` of the input blocks, entry by entry. -/
theorem block_eq (x0 : Vec Ideal S256x1024 .bf16) (x1 x2 : Vec Ideal S2048x1024 .bf16) (x3 : Vec Ideal S256x2048 .i32) :
    out3_4 (F := Ideal) x0 x1 x2 x3
      = Cert.Attn.unmat (Cert.Attn.blockOut (Cert.Attn.msk32 (Cert.Attn.mat x3)) (Cert.Attn.mat x0) (Cert.Attn.mat x1) (Cert.Attn.mat x2)) := by
  have hz : (![0, 0] : Fin 2 → ℕ) = fun _ => 0 := funext fun a => by fin_cases a <;> rfl
  funext y
  unfold out3_4
  refine (View.canon_apply_of_pieces
    (unmat (blockOut (mat (k3_pay2 (F := Ideal) (View.ld x3 r3_0))) (mat x0) (mat x1) (mat x2))) _ ?_ y
    (cover3_4 _ _ _ _ _ _ _ _ _ _ _ _ _ _ _ _ y)).trans ?_
  · intro p hp x
    simp only [List.mem_cons, List.not_mem_nil, or_false] at hp
    rcases hp with rfl | rfl | rfl | rfl | rfl | rfl | rfl | rfl | rfl | rfl | rfl | rfl | rfl | rfl | rfl | rfl
    · exact piece (k3_pay2 (F := Ideal) (View.ld x3 r3_0)) x0 x1 x2 960 (by decide) (by decide) _ _ x
    · exact piece (k3_pay2 (F := Ideal) (View.ld x3 r3_0)) x0 x1 x2 896 (by decide) (by decide) _ _ x
    · exact piece (k3_pay2 (F := Ideal) (View.ld x3 r3_0)) x0 x1 x2 832 (by decide) (by decide) _ _ x
    · exact piece (k3_pay2 (F := Ideal) (View.ld x3 r3_0)) x0 x1 x2 768 (by decide) (by decide) _ _ x
    · exact piece (k3_pay2 (F := Ideal) (View.ld x3 r3_0)) x0 x1 x2 704 (by decide) (by decide) _ _ x
    · exact piece (k3_pay2 (F := Ideal) (View.ld x3 r3_0)) x0 x1 x2 640 (by decide) (by decide) _ _ x
    · exact piece (k3_pay2 (F := Ideal) (View.ld x3 r3_0)) x0 x1 x2 576 (by decide) (by decide) _ _ x
    · exact piece (k3_pay2 (F := Ideal) (View.ld x3 r3_0)) x0 x1 x2 512 (by decide) (by decide) _ _ x
    · exact piece (k3_pay2 (F := Ideal) (View.ld x3 r3_0)) x0 x1 x2 448 (by decide) (by decide) _ _ x
    · exact piece (k3_pay2 (F := Ideal) (View.ld x3 r3_0)) x0 x1 x2 384 (by decide) (by decide) _ _ x
    · exact piece (k3_pay2 (F := Ideal) (View.ld x3 r3_0)) x0 x1 x2 320 (by decide) (by decide) _ _ x
    · exact piece (k3_pay2 (F := Ideal) (View.ld x3 r3_0)) x0 x1 x2 256 (by decide) (by decide) _ _ x
    · exact piece (k3_pay2 (F := Ideal) (View.ld x3 r3_0)) x0 x1 x2 192 (by decide) (by decide) _ _ x
    · exact piece (k3_pay2 (F := Ideal) (View.ld x3 r3_0)) x0 x1 x2 128 (by decide) (by decide) _ _ x
    · exact piece (k3_pay2 (F := Ideal) (View.ld x3 r3_0)) x0 x1 x2 64 (by decide) (by decide) _ _ x
    · exact piece (k3_pay2 (F := Ideal) (View.ld x3 r3_0)) x0 x1 x2 0 (by decide) (by decide) _ _ x
  · rw [View.ld_unit_zero hz]
    rfl

end Cert.KernelIdeal.AttnBlock

end
-- ==== Proof.KRegion3.lean ====
/-
  The attention region: from what one grid point leaves in its output block to the whole output array.

  The grid has 8 points.  Point t holds rows 256 t … 256 t + 255 of the projected queries and of the mask words,
  every row of the projected keys and values, and writes rows 256 t … 256 t + 255 of the output.  Entry (r, j) of
  its output block is the attention of row 256 t + r, feature j, so the eight row blocks, which tile the output,
  leave the array holding the attention of every row and feature.
-/
import proofs.«169011_j24979529793739_2_alg».proof.Proof.Gen.KernelIdeal.Frame
import proofs.«169011_j24979529793739_2_alg».proof.Proof.KAttnBlock
import proofs.«169011_j24979529793739_2_alg».proof.Proof.AttnSpec
import Idealize.ShloMosaic.Lib.Pipeline.Value
import Idealize.ShloMosaic.Lib.ValueIdx

set_option maxRecDepth 16384

noncomputable section

namespace Cert.KernelIdeal.Reg3

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The windows' block indices -/

/-- The block indices, decided over the grid: the query, mask and output windows sit at row block t, the key and
    value windows at the one block there is. -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- A point's number is below 8. -/
theorem t_lt (t : Fin cfg3.N) : t.val < 8 := by
  have h := t.isLt
  have e : cfg3.N = 8 := N_3
  omega

/-- Row r of row block t is a row of the array. -/
theorem row_lt (t : Fin cfg3.N) (r : Fin 256) : 256 * t.val + r.val < 2048 := by
  have := t_lt t; have := r.isLt; omega

/-- Row r of row block t. -/
abbrev row (t : Fin cfg3.N) (r : Fin 256) : Fin 2048 := ⟨256 * t.val + r.val, row_lt t r⟩

/-! ## The windows' blocks, read at an entry -/

/-- The query block's entry (r, j) is the query array's entry (256 t + r, j). -/
theorem read_q (c : Dev nD) (t : Fin cfg3.N) (r : Fin 256) (j : Fin 1024) :
    iblk3 (F := Ideal) V c 0 t (ix2 r j) = V c main_v8 (ix2 (row t r) j) := by
  obtain ⟨e0, e1, -⟩ := idx_facts t
  show V c main_v8 (((cfg3.win 0).blk t).view.emb (ix2 r j)) = _
  refine congrArg (V c main_v8) ?_
  funext a; apply Fin.ext
  match a with
  | ⟨0, _⟩ => show win3_0.index t (0 : Fin 2) * 256 + 1 * r.val = 256 * t.val + r.val; omega
  | ⟨1, _⟩ => show win3_0.index t (1 : Fin 2) * 1024 + 1 * j.val = j.val; omega

/-- The key block is the whole key array. -/
theorem read_k (c : Dev nD) (t : Fin cfg3.N) (p : Fin 2048) (j : Fin 1024) :
    iblk3 (F := Ideal) V c 1 t (ix2 p j) = V c main_v9 (ix2 p j) := by
  obtain ⟨-, -, e0, e1, -⟩ := idx_facts t
  show V c main_v9 (((cfg3.win 1).blk t).view.emb (ix2 p j)) = _
  refine congrArg (V c main_v9) ?_
  funext a; apply Fin.ext
  match a with
  | ⟨0, _⟩ => show win3_1.index t (0 : Fin 2) * 2048 + 1 * p.val = p.val; omega
  | ⟨1, _⟩ => show win3_1.index t (1 : Fin 2) * 1024 + 1 * j.val = j.val; omega

/-- The value block is the whole value array. -/
theorem read_v (c : Dev nD) (t : Fin cfg3.N) (p : Fin 2048) (j : Fin 1024) :
    iblk3 (F := Ideal) V c 2 t (ix2 p j) = V c main_v10 (ix2 p j) := by
  obtain ⟨-, -, -, -, e0, e1, -⟩ := idx_facts t
  show V c main_v10 (((cfg3.win 2).blk t).view.emb (ix2 p j)) = _
  refine congrArg (V c main_v10) ?_
  funext a; apply Fin.ext
  match a with
  | ⟨0, _⟩ => show win3_2.index t (0 : Fin 2) * 2048 + 1 * p.val = p.val; omega
  | ⟨1, _⟩ => show win3_2.index t (1 : Fin 2) * 1024 + 1 * j.val = j.val; omega

/-- The mask block's entry (r, p) is the mask array's entry (256 t + r, p). -/
theorem read_m (c : Dev nD) (t : Fin cfg3.N) (r : Fin 256) (p : Fin 2048) :
    iblk3 (F := Ideal) V c 3 t (ix2 r p) = V c main_v11 (ix2 (row t r) p) := by
  obtain ⟨-, -, -, -, -, -, e0, e1, -⟩ := idx_facts t
  show V c main_v11 (((cfg3.win 3).blk t).view.emb (ix2 r p)) = _
  refine congrArg (V c main_v11) ?_
  funext a; apply Fin.ext
  match a with
  | ⟨0, _⟩ => show win3_3.index t (0 : Fin 2) * 256 + 1 * r.val = 256 * t.val + r.val; omega
  | ⟨1, _⟩ => show win3_3.index t (1 : Fin 2) * 2048 + 1 * p.val = p.val; omega

/-- The output block's entry (r, j) sits at the output array's entry (256 t + r, j). -/
theorem emb_out (t : Fin cfg3.N) (r : Fin 256) (j : Fin 1024) :
    ((cfg3.win 4).blk t).view.emb (ix2 r j) = ix2 (row t r) j := by
  obtain ⟨-, -, -, -, -, -, -, -, e0, e1⟩ := idx_facts t
  funext a; apply Fin.ext
  match a with
  | ⟨0, _⟩ => show win3_4.index t (0 : Fin 2) * 256 + 1 * r.val = 256 * t.val + r.val; omega
  | ⟨1, _⟩ => show win3_4.index t (1 : Fin 2) * 1024 + 1 * j.val = j.val; omega

/-! ## What a point writes back -/

/-- The attention of every row and feature, as an array, from the four arrays the region finds. -/
abbrev G (c : Dev nD) : S2048x1024.Idx → EReal :=
  Cert.Attn.unmat (Cert.Attn.attnK (Cert.Attn.mat (V c main_v8 : S2048x1024.Idx → EReal)) (Cert.Attn.mat (V c main_v9 : S2048x1024.Idx → EReal))
    (Cert.Attn.mat (V c main_v10 : S2048x1024.Idx → EReal)) (Cert.Attn.msk32 (Cert.Attn.mat (V c main_v11 : S2048x2048.Idx → BitVec 32))))

/-- Point t writes back row block t of the attention array. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4, AttnBlock.block_eq]
  funext y
  obtain ⟨r, j, rfl⟩ : ∃ (r : Fin 256) (j : Fin 1024), y = ix2 r j := ⟨_, _, eq_ix2 y⟩
  show Cert.Attn.blockOut _ _ _ _ r j = G V c (((cfg3.win 4).blk t).view.emb (ix2 r j))
  rw [emb_out]
  show Cert.Attn.blockOut _ _ _ _ r j = Cert.Attn.attnK _ _ _ _ (row t r) j
  unfold Cert.Attn.blockOut Cert.Attn.attnK Cert.Attn.score
  refine congrArg₂ Cert.Attn.headK (funext fun p => ?_) (funext fun p => ?_)
  · refine congrArg₂ (fun b x => Scalar.select b Cert.Attn.negBig x) ?_ ?_
    · show IntOp.cmpi .ne (iblk3 (F := Ideal) V c 3 t (ix2 r p)) 0#32 = IntOp.cmpi .ne (V c main_v11 (ix2 (row t r) p)) 0#32
      rw [read_m]
    · refine congrArg (· * Cert.Attn.scale) (Finset.sum_congr rfl fun d _ => ?_)
      exact congrArg₂ (fun a b : EReal => a * b) (read_q V c t r _) (read_k V c t p _)
  · show iblk3 (F := Ideal) V c 2 t (ix2 p j) = V c main_v10 (ix2 p j)
    exact read_v V c t p j

/-! ## The blocks tile the output array -/

/-- An entry of the output array is in point t's block iff each coordinate is in the block's range on its axis. -/
theorem mem_blk (t : Fin cfg3.N) (i : S2048x1024.Idx) :
    i ∈ ((cfg3.win 4).blk t).view.set ↔ ∀ a : Fin 2, win3_4.index t a * S256x1024.size a ≤ (i a).val ∧ (i a).val < win3_4.index t a * S256x1024.size a + S256x1024.size a := by
  show i ∈ ((View.whole main_v12).slice (win3_4.rect t)).set ↔ _
  rw [View.set_slice_whole, Rect.mem_set_unit]
  exact Iff.rfl

/-- Row s of the output is written by point s / 256. -/
theorem cover (i : S2048x1024.Idx) : ∃ t : Fin cfg3.N, (cfg3.win 4).flush t = true ∧ i ∈ ((cfg3.win 4).blk t).view.set := by
  have hi0 : (i 0).val < 2048 := (i 0).isLt
  have hi1 : (i 1).val < 1024 := (i 1).isLt
  have hN : cfg3.N = 8 := N_3
  obtain ⟨t, ht⟩ : ∃ t : Fin cfg3.N, t.val = (i 0).val / 256 := ⟨⟨(i 0).val / 256, by omega⟩, rfl⟩
  obtain ⟨-, -, -, -, -, -, -, -, e0, e1⟩ := idx_facts t
  refine ⟨t, flush3_4 t, ?_⟩
  rw [mem_blk]
  intro a
  match a with
  | ⟨0, _⟩ => show win3_4.index t (0 : Fin 2) * 256 ≤ (i 0).val ∧ (i 0).val < win3_4.index t (0 : Fin 2) * 256 + 256; omega
  | ⟨1, _⟩ => show win3_4.index t (1 : Fin 2) * 1024 ≤ (i 1).val ∧ (i 1).val < win3_4.index t (1 : Fin 2) * 1024 + 1024; omega

/-! ## The output array after the region -/

/-- After the region the output array holds the attention of every row and feature, from the projected queries,
    keys and values and the mask words the region finds. -/
theorem final (c : Dev nD) :
    (dat3 (F := Ideal) V c).arrAt 4 cfg3.N
      = Cert.Attn.unmat (Cert.Attn.attnK (Cert.Attn.mat (V c main_v8 : S2048x1024.Idx → EReal)) (Cert.Attn.mat (V c main_v9 : S2048x1024.Idx → EReal))
          (Cert.Attn.mat (V c main_v10 : S2048x1024.Idx → EReal)) (Cert.Attn.msk32 (Cert.Attn.mat (V c main_v11 : S2048x2048.Idx → BitVec 32)))) :=
  (dat3 (F := Ideal) V c).arrAt_eq_of_cover 4 (G V c) (fun t _ => flushed_eq V c t) cover

end Cert.KernelIdeal.Reg3

end
-- ==== Proof.KRegion4.lean ====
/-
  Region 4: the output array after the region is the plain matrix product of its two input arrays.

  The grid has 4 points; point t reads rows 512 t … 512 t + 511 of the first array and the whole second array, and
  writes rows 512 t … 512 t + 511 of the output: entry (r, c) of that block is the sum over k of the first block's
  (r, k) times the second array's (k, c).  The four row blocks tile the output array.
-/
import proofs.«169011_j24979529793739_2_alg».proof.Proof.Gen.KernelIdeal.Frame
import proofs.«169011_j24979529793739_2_alg».proof.Proof.KDots
import proofs.«169011_j24979529793739_2_alg».proof.Proof.AttnSpec
import Idealize.ShloMosaic.Lib.Pipeline.Value
import Idealize.ShloMosaic.Lib.ValueIdx

set_option maxRecDepth 16384

noncomputable section

namespace Cert.KernelIdeal.Reg4

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The two zero offsets of a whole-buffer access. -/
theorem zero_offsets : (![0, 0] : Fin 2 → Nat) = fun _ => 0 := funext fun a => by fin_cases a <;> rfl

/-- The matrix product of a [2048, 1024] array and a [1024, 1024] array, as an array. -/
abbrev prod (a : S2048x1024.Idx → EReal) (b : S1024x1024.Idx → EReal) : S2048x1024.Idx → EReal :=
  Cert.Attn.unmat (fun (s : Fin 2048) (j : Fin 1024) => ∑ k : Fin 1024, Cert.Attn.mat a s k * Cert.Attn.mat b k j)

/-- The body's payload at an entry: the block of rows times the matrix. -/
theorem payload_apply (x0 : Vec Ideal S512x1024 .bf16) (x1 : Vec Ideal S1024x1024 .bf16) (r : Fin 512) (c : Fin 1024) :
    k4_pay1 x0 x1 (ix2 r c) = ∑ k : Fin 1024, x0 (ix2 r k) * x1 (ix2 k c) := by
  unfold k4_pay1
  rw [shapeCast_self, shapeCast_self, Dots.proj_apply]

/-- The printed index maps over the grid: point t reads row block t of the first array, the whole second array, and
    writes row block t of the output. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A block of the product from a block of rows: when x0 is rows 512 n … of a and x1 is b, the payload at j is the
    product at the index 512 n rows further down. -/
theorem payload_eq_prod (a : S2048x1024.Idx → EReal) (b : S1024x1024.Idx → EReal)
    (x0 : Vec Ideal S512x1024 .bf16) (x1 : Vec Ideal S1024x1024 .bf16) (n : Nat)
    (h0 : ∀ (r : Fin 512) (k : Fin 1024) (i : S2048x1024.Idx), (i 0).val = n * 512 + r.val → (i 1).val = k.val → x0 (ix2 r k) = a i)
    (h1 : ∀ (k c : Fin 1024), x1 (ix2 k c) = b (ix2 k c))
    (j : S512x1024.Idx) (i : S2048x1024.Idx) (hi0 : (i 0).val = n * 512 + (j 0).val) (hi1 : (i 1).val = (j 1).val) :
    k4_pay1 x0 x1 j = prod a b i := by
  have hj : j = ix2 (⟨(j 0).val, idx2_lt0 j⟩ : Fin 512) (⟨(j 1).val, idx2_lt1 j⟩ : Fin 1024) :=
    funext fun d => match d with | ⟨0, _⟩ => rfl | ⟨1, _⟩ => rfl
  refine (congrArg (k4_pay1 x0 x1) hj).trans ((payload_apply x0 x1 _ _).trans ?_)
  show _ = ∑ k : Fin 1024, a (ix2 ⟨(i 0).val, idx2_lt0 i⟩ k) * b (ix2 k ⟨(i 1).val, idx2_lt1 i⟩)
  refine Finset.sum_congr rfl fun k _ => ?_
  rw [h0 ⟨(j 0).val, idx2_lt0 j⟩ k (ix2 ⟨(i 0).val, idx2_lt0 i⟩ k) hi0 rfl, h1]
  congr 2
  exact congrArg (ix2 k) (Fin.ext hi1.symm)

variable (V : (c : Dev nD) → (b : Ref sig .tc) → Buf (Elt Ideal) ((c : Thread nD τ).loc b))

/-- What point t writes back is block t of the product of the two arrays as the region finds them. -/
theorem flushed_eq (c : Dev nD) (t : Fin cfg4.N) :
    (dat4 (F := Ideal) V c).flushed 2 t
      = ((cfg4.win 2).blk t).view.read (Elt Ideal) (prod (V c main_v12) (V c main_v7)) := by
  show (cfg4.win 2).cut (grid4.coords t) ((dat4 V c).after 2 t) = _
  rw [after4_2]
  unfold out4_2
  rw [View.canon_unit_zero zero_offsets]
  simp only [View.ld_unit_zero (S := S512x1024) zero_offsets, View.ld_unit_zero (S := S1024x1024) zero_offsets]
  obtain ⟨e00, e01, e10, e11, e20, e21⟩ := index_facts t
  funext j
  show k4_pay1 (iblk4 V c 0 t) (iblk4 V c 1 t) j = prod (V c main_v12) (V c main_v7) (((cfg4.win 2).blk t).view.emb j)
  refine payload_eq_prod (V c main_v12) (V c main_v7) _ _ t.val ?_ ?_ j _ ?_ ?_
  · intro r k i hi0 hi1
    unfold iblk4
    rw [View.read_apply]
    show V c main_v12 (((cfg4.win 0).blk t).view.emb (ix2 r k)) = V c main_v12 i
    congr 1
    funext d
    apply Fin.ext
    match d with
    | ⟨0, _⟩ => show win4_0.index t (0 : Fin 2) * 512 + 1 * r.val = (i 0).val; omega
    | ⟨1, _⟩ => show win4_0.index t (1 : Fin 2) * 1024 + 1 * k.val = (i 1).val; omega
  · intro k q
    unfold iblk4
    rw [View.read_apply]
    show V c main_v7 (((cfg4.win 1).blk t).view.emb (ix2 k q)) = V c main_v7 (ix2 k q)
    congr 1
    funext d
    apply Fin.ext
    match d with
    | ⟨0, _⟩ => show win4_1.index t (0 : Fin 2) * 1024 + 1 * k.val = k.val; omega
    | ⟨1, _⟩ => show win4_1.index t (1 : Fin 2) * 1024 + 1 * q.val = q.val; omega
  · show win4_2.index t (0 : Fin 2) * 512 + 1 * (j 0).val = t.val * 512 + (j 0).val; omega
  · show win4_2.index t (1 : Fin 2) * 1024 + 1 * (j 1).val = (j 1).val; omega

/-- An index of the output array is in point t's block iff each coordinate is in the block's range on its axis. -/
theorem mem_block (t : Fin cfg4.N) (i : S2048x1024.Idx) :
    i ∈ ((cfg4.win 2).blk t).view.set ↔ ∀ a : Fin 2, win4_2.index t a * S512x1024.size a ≤ (i a).val ∧ (i a).val < win4_2.index t a * S512x1024.size a + S512x1024.size a := by
  show i ∈ ((View.whole main_v13).slice (win4_2.rect t)).set ↔ _
  rw [View.set_slice_whole, Rect.mem_set_unit]
  exact Iff.rfl

/-- The four row blocks cover the output array: row r is in the block of point r / 512. -/
theorem cover (i : S2048x1024.Idx) :
    ∃ t : Fin cfg4.N, (cfg4.win 2).flush t = true ∧ i ∈ ((cfg4.win 2).blk t).view.set := by
  have hi0 : (i 0).val < 2048 := idx2_lt0 i
  have hi1 : (i 1).val < 1024 := idx2_lt1 i
  let t : Fin cfg4.N := ⟨(i 0).val / 512, by show (i 0).val / 512 < 4; omega⟩
  obtain ⟨e00, e01, e10, e11, e20, e21⟩ := index_facts t
  have ht : t.val = (i 0).val / 512 := rfl
  refine ⟨t, flush4_2 t, ?_⟩
  rw [mem_block]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 1024 ≤ (i 1).val ∧ (i 1).val < win4_2.index t (1 : Fin 2) * 1024 + 1024; omega

/-- The output array after the region is the matrix product of the two input arrays as the region finds them. -/
theorem final (c : Dev nD) :
    (dat4 (F := Ideal) V c).arrAt 2 cfg4.N
      = (Cert.Attn.unmat (α := EReal) (fun (s : Fin 2048) (j : Fin 1024) =>
          ∑ k : Fin 1024, Cert.Attn.mat (α := EReal) (V c main_v12 : S2048x1024.Idx → EReal) s k
            * Cert.Attn.mat (α := EReal) (V c main_v7 : S1024x1024.Idx → EReal) k j) : S2048x1024.Idx → EReal) :=
  (dat4 (F := Ideal) V c).arrAt_eq_of_cover 2 (prod (V c main_v12) (V c main_v7)) (fun t _ => flushed_eq V c t) cover

end Cert.KernelIdeal.Reg4

end
-- ==== Proof.KValue.lean ====
/-
  The kernel's result as one function of its eight arguments.

  The program runs five regions.  Three of them project the queries, keys and values (x ↦ x · Wᵀ, the transposed
  weights prepared on the host); the fourth computes the attention of every head from the three projections and the
  mask (widened to words on the host, read back as bits by the kernel); the fifth multiplies the attention output by
  Woᵀ.  Each region's output array is a function of the arrays it reads, and the buffers between the regions are
  carried unchanged, so the result is the composition: `Cert.Attn.outK` of the arguments.
-/
import proofs.«169011_j24979529793739_2_alg».proof.Proof.KRun
import proofs.«169011_j24979529793739_2_alg».proof.Proof.KWalk
import proofs.«169011_j24979529793739_2_alg».proof.Proof.KRegion0
import proofs.«169011_j24979529793739_2_alg».proof.Proof.KRegion1
import proofs.«169011_j24979529793739_2_alg».proof.Proof.KRegion2
import proofs.«169011_j24979529793739_2_alg».proof.Proof.KRegion3
import proofs.«169011_j24979529793739_2_alg».proof.Proof.KRegion4
import proofs.«169011_j24979529793739_2_alg».proof.Proof.KAttnDefs

noncomputable section

namespace Cert.KernelIdeal.Value

open Cert.KernelIdeal Cert.KernelIdeal.Gen Idealize.ShloMosaic Idealize.ShloMosaic.TcCoe Idealize.SL.Sem Cert.Attn

variable (m : (ℓ : Loc nD τ sig) → Buf (Elt Ideal) ℓ) (ρ : Dev nD → PrngReg)

/-- The projected queries, as the attention region finds them. -/
theorem queries_eq (c : Dev nD) :
    (V5 m ρ c main_v8 : S2048x1024.Idx → EReal)
      = unmat (proj (mat (m ((c : Thread nD τ).loc main_arg0) : S2048x1024.Idx → EReal)) (mat (m ((c : Thread nD τ).loc main_arg4) : S1024x1024.Idx → EReal))) := by
  rw [Walk.V5_v8, Reg0.final (V1 m ρ) c, Walk.V1_arg0, Walk.V1_v1]
  rfl

/-- The projected keys. -/
theorem keys_eq (c : Dev nD) :
    (V5 m ρ c main_v9 : S2048x1024.Idx → EReal)
      = unmat (proj (mat (m ((c : Thread nD τ).loc main_arg1) : S2048x1024.Idx → EReal)) (mat (m ((c : Thread nD τ).loc main_arg5) : S1024x1024.Idx → EReal))) := by
  rw [Walk.V5_v9, Reg1.final (V2 m ρ) c, Walk.V2_arg1, Walk.V2_v3]
  rfl

/-- The projected values. -/
theorem values_eq (c : Dev nD) :
    (V5 m ρ c main_v10 : S2048x1024.Idx → EReal)
      = unmat (proj (mat (m ((c : Thread nD τ).loc main_arg2) : S2048x1024.Idx → EReal)) (mat (m ((c : Thread nD τ).loc main_arg6) : S1024x1024.Idx → EReal))) := by
  rw [Walk.V5_v10, Reg2.final (V3 m ρ) c, Walk.V3_arg2, Walk.V3_v5]
  rfl

/-- The mask words the attention region reads, asked "not zero", are the mask bits. -/
theorem mask_eq (c : Dev nD) :
    msk32 (mat (V5 m ρ c main_v11 : S2048x2048.Idx → BitVec 32)) = mat (m ((c : Thread nD τ).loc main_arg3) : S2048x2048.Idx → BitVec 1) := by
  rw [Walk.V5_v11]
  exact msk32_setWidth (mat (m ((c : Thread nD τ).loc main_arg3) : S2048x2048.Idx → BitVec 1))

/-- The attention output, as the last region finds it. -/
theorem attention_eq (c : Dev nD) :
    (V6 m ρ c main_v12 : S2048x1024.Idx → EReal)
      = unmat (attnK
          (proj (mat (m ((c : Thread nD τ).loc main_arg0) : S2048x1024.Idx → EReal)) (mat (m ((c : Thread nD τ).loc main_arg4) : S1024x1024.Idx → EReal)))
          (proj (mat (m ((c : Thread nD τ).loc main_arg1) : S2048x1024.Idx → EReal)) (mat (m ((c : Thread nD τ).loc main_arg5) : S1024x1024.Idx → EReal)))
          (proj (mat (m ((c : Thread nD τ).loc main_arg2) : S2048x1024.Idx → EReal)) (mat (m ((c : Thread nD τ).loc main_arg6) : S1024x1024.Idx → EReal)))
          (mat (m ((c : Thread nD τ).loc main_arg3) : S2048x2048.Idx → BitVec 1))) := by
  rw [Walk.V6_v12, Reg3.final (V5 m ρ) c, queries_eq, keys_eq, values_eq, mask_eq]
  rfl

/-- The result buffer's contents after the run, a function of the eight arguments. -/
def result (c : Dev nD) : Buf (Elt Ideal) ((c.tc : Thread nD τ).loc main_v13) :=
  unmat (outK
    (mat (m ((c.tc : Thread nD τ).loc main_arg0) : S2048x1024.Idx → EReal)) (mat (m ((c.tc : Thread nD τ).loc main_arg1) : S2048x1024.Idx → EReal))
    (mat (m ((c.tc : Thread nD τ).loc main_arg2) : S2048x1024.Idx → EReal)) (mat (m ((c.tc : Thread nD τ).loc main_arg3) : S2048x2048.Idx → BitVec 1))
    (mat (m ((c.tc : Thread nD τ).loc main_arg4) : S1024x1024.Idx → EReal)) (mat (m ((c.tc : Thread nD τ).loc main_arg5) : S1024x1024.Idx → EReal))
    (mat (m ((c.tc : Thread nD τ).loc main_arg6) : S1024x1024.Idx → EReal)) (mat (m ((c.tc : Thread nD τ).loc main_arg7) : S1024x1024.Idx → EReal)))

/-- The last boundary's contents of the result buffer are `result`. -/
theorem result_eq (c : Dev nD) : W7 m ρ c (Proc.devRef .tc main_v13) = result m c := by
  rw [Walk.W7_v13, Reg4.final (V6 m ρ) c, attention_eq, Walk.V6_v7]
  rfl

/-- Every weakly fair execution of the kernel's program terminates, nothing faulting, with the result buffer at
    `result` and the argument arrays as launched. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩) (Cert.KernelIdeal.Run.run m ρ)

end Cert.KernelIdeal.Value

end
-- ==== Proof.RefSide.lean ====
/-
  The reference side of multi-head attention: the host program's last stage, read one operation at a time at
  explicit coordinates, is the layer `Cert.Attn.outR` of the shared specification.
-/
import proofs.«169011_j24979529793739_2_alg».proof.Proof.Gen.ReferenceIdeal.Read
import proofs.«169011_j24979529793739_2_alg».proof.Proof.AttnSpec
import Idealize.ShloMosaic.Lib.ValueIdx
import Idealize.ShloMosaic.PureOps.Ideal.Laws
import Idealize.ShloMosaic.PureOps.Reduce

noncomputable section

namespace Cert.RefSide

open Cert.ReferenceIdeal Cert.ReferenceIdeal.Gen Cert.ReferenceIdeal.Read Cert.Attn
open Idealize.ShloMosaic Idealize.ShloMosaic.ValueIdx Idealize.ShloMosaic.StableHlo

/-- An input or stage of 2048 positions by 1024 features. -/
abbrev Act := (⟨S2048x1024, .f32⟩ : BufTy).Contents (Elt Ideal)
/-- A 1024 by 1024 weight matrix. -/
abbrev Wt := (⟨S1024x1024, .f32⟩ : BufTy).Contents (Elt Ideal)
/-- The 2048 by 2048 mask. -/
abbrev Msk := (⟨S2048x2048, .i1⟩ : BufTy).Contents (Elt Ideal)

/-! ## The projections -/

/-- The first projection at (s, j) is the sum over k of x (s, k) · W (j, k). -/
theorem v1_ix2 (x : Act) (W : Wt) (s : Fin 2048) (j : Fin 1024) :
    val_main_v1 (F := Ideal) x W (ix2 s j) = proj (mat x) (mat W) s j := by
  rw [val_main_v1_apply]
  unfold proj
  refine Finset.sum_congr rfl fun k _ => ?_
  rw [val_main_v0_apply]
  have e1 : lidx_main_v1 (ix2 s j) k = ix2 s k := funext fun a => by
    match a with | ⟨0, _⟩ => rfl | ⟨1, _⟩ => rfl
  have e2 : idx_main_v0 (ridx_main_v1 (ix2 s j) k) = ix2 j k := funext fun a => by
    match a with | ⟨0, _⟩ => rfl | ⟨1, _⟩ => rfl
  rw [e1, e2]
  rfl

theorem v5_ix2 (x : Act) (W : Wt) (s : Fin 2048) (j : Fin 1024) :
    val_main_v5 (F := Ideal) x W (ix2 s j) = proj (mat x) (mat W) s j := v1_ix2 x W s j

theorem v9_ix2 (x : Act) (W : Wt) (s : Fin 2048) (j : Fin 1024) :
    val_main_v9 (F := Ideal) x W (ix2 s j) = proj (mat x) (mat W) s j := v1_ix2 x W s j

/-! ## The head split -/

/-- Row-major position of (s, h, d) among 2048 × 16 × 64 is (s, h · 64 + d) among 2048 × 1024. -/
theorem split_idx (h : Fin 16) (s : Fin 2048) (d : Fin 64) :
    idx_main_v2 (idx_main_v3 (ix3 h s d)) = ix2 s (col h d) := funext fun a => Fin.ext (by
  have hh := h.isLt; have hs := s.isLt; have hd := d.isLt
  match a with
  | ⟨0, _⟩ => show ((s.val * 16 + h.val) * 64 + d.val) / 1024 = s.val; omega
  | ⟨1, _⟩ => show ((s.val * 16 + h.val) * 64 + d.val) % 1024 = h.val * 64 + d.val; omega)

theorem v3_ix3 (x : Act) (W : Wt) (h : Fin 16) (s : Fin 2048) (d : Fin 64) :
    val_main_v3 (F := Ideal) x W (ix3 h s d) = proj (mat x) (mat W) s (col h d) := by
  rw [val_main_v3_apply, val_main_v2_apply, split_idx, v1_ix2]

theorem v7_ix3 (x : Act) (W : Wt) (h : Fin 16) (s : Fin 2048) (d : Fin 64) :
    val_main_v7 (F := Ideal) x W (ix3 h s d) = proj (mat x) (mat W) s (col h d) := v3_ix3 x W h s d

theorem v11_ix3 (x : Act) (W : Wt) (h : Fin 16) (s : Fin 2048) (d : Fin 64) :
    val_main_v11 (F := Ideal) x W (ix3 h s d) = proj (mat x) (mat W) s (col h d) := v3_ix3 x W h s d

/-! ## The masked, scaled scores -/

/-- The scores as plain coordinates' function of the inputs. -/
abbrev sc (x0 x1 : Act) (x3 : Msk) (x4 x5 : Wt) (h : Fin 16) (s : Fin 2048) : Fin 2048 → EReal :=
  score (proj (mat x0) (mat x4)) (proj (mat x1) (mat x5)) (mat x3) h s

theorem v12_ix3 (x0 x1 : Act) (x4 x5 : Wt) (h : Fin 16) (s t : Fin 2048) :
    val_main_v12 (F := Ideal) x0 x1 x4 x5 (ix3 h s t)
      = ∑ d : Fin 64, proj (mat x0) (mat x4) s (col h d) * proj (mat x1) (mat x5) t (col h d) := by
  rw [val_main_v12_apply]
  refine Finset.sum_congr rfl fun k _ => ?_
  have e1 : lidx_main_v12 (ix3 h s t) k = ix3 h s k := funext fun a => by
    match a with | ⟨0, _⟩ => rfl | ⟨1, _⟩ => rfl | ⟨2, _⟩ => rfl
  have e2 : ridx_main_v12 (ix3 h s t) k = ix3 h t k := funext fun a => by
    match a with | ⟨0, _⟩ => rfl | ⟨1, _⟩ => rfl | ⟨2, _⟩ => rfl
  rw [e1, e2, v3_ix3, v7_ix3]

theorem mask_ix3 (x3 : Msk) (h : Fin 16) (s t : Fin 2048) :
    val_main_call0_v1 (F := Ideal) x3 (ix3 h s t) = mat x3 s t := by
  rw [val_main_call0_v1_apply, val_main_v15_apply]
  have e : idx_main_v15 (idx_main_call0_v1 (ix3 h s t)) = ix2 s t := funext fun a => by
    match a with | ⟨0, _⟩ => rfl | ⟨1, _⟩ => rfl
  rw [e]
  rfl

theorem v16_ix3 (x0 x1 : Act) (x3 : Msk) (x4 x5 : Wt) (h : Fin 16) (s t : Fin 2048) :
    val_main_v16 (F := Ideal) x0 x1 x3 x4 x5 (ix3 h s t) = sc x0 x1 x3 x4 x5 h s t := by
  rw [val_main_v16_apply, mask_ix3, val_main_v14_apply, v12_ix3, val_main_call0_v2_apply, val_main_v13_apply]
  rfl

/-! ## The row maximum -/

theorem reduces_d2 : S16x2048x2048.Reduces [2] S16x2048 := by decide

/-- Head `h`, query `s` with key coordinate `k` put back is (h, s, k). -/
theorem lift_ix3 (h : Fin 16) (s : Fin 2048) (k : Fin (S16x2048x2048.size 2)) :
    reduces_d2.lift (ix2 h s) k = ix3 h s (⟨k.val, k.isLt⟩ : Fin 2048) := by
  funext c; apply Fin.ext
  fin_cases c <;> rfl

theorem v17_ix2 (x0 x1 : Act) (x3 : Msk) (x4 x5 : Wt) (h : Fin 16) (s : Fin 2048) :
    val_main_v17 (F := Ideal) x0 x1 x3 x4 x5 (ix2 h s) = rowmax (sc x0 x1 x3 x4 x5 h s) := by
  unfold val_main_v17
  rw [Host.reduce_eq_fold_single FloatOps.maximumf _ _ reducesTo_S16x2048x2048_S16x2048_d2 reduces_d2 h_S_]
  have hf : (val_main_v16 (F := Ideal) x0 x1 x3 x4 x5 ∘ reduces_d2.lift (ix2 h s)) = fun k : Fin 2048 => sc x0 x1 x3 x4 x5 h s k :=
    funext fun k => (congrArg (val_main_v16 (F := Ideal) x0 x1 x3 x4 x5) (lift_ix3 h s k)).trans (v16_ix3 x0 x1 x3 x4 x5 h s _)
  have hb : val_main_cst_1 (F := Ideal) (Shape.Idx.first h_S_) = (⊥ : EReal) := by
    rw [val_main_cst_1_apply]; simp [Ideal.ofBits, Ideal.ieee]
  rw [hb]
  unfold rowmax
  exact congrArg (fun f => Finset.fold max (⊥ : EReal) f (Finset.univ : Finset (Fin 2048))) hf

theorem v19_ix2 (x0 x1 : Act) (x3 : Msk) (x4 x5 : Wt) (h : Fin 16) (s : Fin 2048) :
    val_main_v19 (F := Ideal) x0 x1 x3 x4 x5 (ix2 h s) = rowmax (sc x0 x1 x3 x4 x5 h s) := by
  rw [val_main_v19_apply, v17_ix2, val_main_v18_apply, val_main_cst_2_apply]
  have hb : (FloatOps.ofBits (F := Ideal) .f32 0xFF800000#32) = (⊥ : EReal) := by
    simp [Ideal.ofBits, Ideal.ieee]
  rw [hb]
  exact max_bot_left _

/-! ## The weights, their sum, and the normalised weights -/

theorem v21_ix3 (x0 x1 : Act) (x3 : Msk) (x4 x5 : Wt) (h : Fin 16) (s t : Fin 2048) :
    val_main_v21 (F := Ideal) x0 x1 x3 x4 x5 (ix3 h s t) = rowmax (sc x0 x1 x3 x4 x5 h s) := by
  rw [val_main_v21_apply, val_main_v20_apply]
  have e : idx_main_v20 (idx_main_v21 (ix3 h s t)) = ix2 h s := funext fun a => by
    match a with | ⟨0, _⟩ => rfl | ⟨1, _⟩ => rfl
  rw [e, v19_ix2]

theorem v23_ix3 (x0 x1 : Act) (x3 : Msk) (x4 x5 : Wt) (h : Fin 16) (s t : Fin 2048) :
    val_main_v23 (F := Ideal) x0 x1 x3 x4 x5 (ix3 h s t) = wt (sc x0 x1 x3 x4 x5 h s) t := by
  rw [val_main_v23_apply, val_main_v22_apply, v16_ix3, v21_ix3]
  rfl

theorem v24_ix2 (x0 x1 : Act) (x3 : Msk) (x4 x5 : Wt) (h : Fin 16) (s : Fin 2048) :
    val_main_v24 (F := Ideal) x0 x1 x3 x4 x5 (ix2 h s) = den (sc x0 x1 x3 x4 x5 h s) := by
  rw [val_main_v24_apply, val_main_cst_3_apply]
  have hz : (FloatOps.ofBits (F := Ideal) .f32 0x00000000#32) = (0 : EReal) := Ideal.ofBits_zero_f32
  rw [hz, zero_add]
  unfold den
  refine Finset.sum_congr rfl fun k _ => ?_
  have e : idx_main_v24 (ix2 h s) k = ix3 h s k := funext fun a => by
    match a with | ⟨0, _⟩ => rfl | ⟨1, _⟩ => rfl | ⟨2, _⟩ => rfl
  rw [e, v23_ix3]

theorem v26_ix3 (x0 x1 : Act) (x3 : Msk) (x4 x5 : Wt) (h : Fin 16) (s t : Fin 2048) :
    val_main_v26 (F := Ideal) x0 x1 x3 x4 x5 (ix3 h s t) = den (sc x0 x1 x3 x4 x5 h s) := by
  rw [val_main_v26_apply, val_main_v25_apply]
  have e : idx_main_v25 (idx_main_v26 (ix3 h s t)) = ix2 h s := funext fun a => by
    match a with | ⟨0, _⟩ => rfl | ⟨1, _⟩ => rfl
  rw [e, v24_ix2]

theorem v27_ix3 (x0 x1 : Act) (x3 : Msk) (x4 x5 : Wt) (h : Fin 16) (s t : Fin 2048) :
    val_main_v27 (F := Ideal) x0 x1 x3 x4 x5 (ix3 h s t)
      = Ideal.div (wt (sc x0 x1 x3 x4 x5 h s) t) (den (sc x0 x1 x3 x4 x5 h s)) := by
  rw [val_main_v27_apply, v23_ix3, v26_ix3]
  rfl

/-! ## The heads' outputs and the merge of the heads -/

theorem v28_ix3 (x0 x1 x2 : Act) (x3 : Msk) (x4 x5 x6 : Wt) (h : Fin 16) (s : Fin 2048) (d : Fin 64) :
    val_main_v28 (F := Ideal) x0 x1 x2 x3 x4 x5 x6 (ix3 h s d)
      = headR (sc x0 x1 x3 x4 x5 h s) (fun t => proj (mat x2) (mat x6) t (col h d)) := by
  rw [val_main_v28_apply]
  unfold headR
  refine Finset.sum_congr rfl fun k _ => ?_
  have e1 : lidx_main_v28 (ix3 h s d) k = ix3 h s k := funext fun a => by
    match a with | ⟨0, _⟩ => rfl | ⟨1, _⟩ => rfl | ⟨2, _⟩ => rfl
  have e2 : ridx_main_v28 (ix3 h s d) k = ix3 h k d := funext fun a => by
    match a with | ⟨0, _⟩ => rfl | ⟨1, _⟩ => rfl | ⟨2, _⟩ => rfl
  rw [e1, e2, v27_ix3, v11_ix3]

/-- Row-major position (s, j) among 2048 × 1024 is head j / 64, offset j % 64, of position s. -/
theorem merge_idx (s : Fin 2048) (j : Fin 1024) :
    idx_main_v29 (idx_main_v30 (ix2 s j)) = ix3 (headOf j) s (⟨j.val % 64, Nat.mod_lt _ (by decide)⟩ : Fin 64) :=
  funext fun a => Fin.ext (by
    have hs := s.isLt; have hj := j.isLt
    match a with
    | ⟨0, _⟩ => show (s.val * 1024 + j.val) / 64 % 16 = j.val / 64; omega
    | ⟨1, _⟩ => show (s.val * 1024 + j.val) / 1024 = s.val; omega
    | ⟨2, _⟩ => show (s.val * 1024 + j.val) % 64 = j.val % 64; omega)

/-- Feature j is feature j % 64 of head j / 64. -/
theorem col_headOf (j : Fin 1024) : col (headOf j) (⟨j.val % 64, Nat.mod_lt _ (by decide)⟩ : Fin 64) = j :=
  Fin.ext (by show j.val / 64 * 64 + j.val % 64 = j.val; omega)

theorem v30_ix2 (x0 x1 x2 : Act) (x3 : Msk) (x4 x5 x6 : Wt) (s : Fin 2048) (j : Fin 1024) :
    val_main_v30 (F := Ideal) x0 x1 x2 x3 x4 x5 x6 (ix2 s j)
      = attnR (proj (mat x0) (mat x4)) (proj (mat x1) (mat x5)) (proj (mat x2) (mat x6)) (mat x3) s j := by
  rw [val_main_v30_apply, val_main_v29_apply, merge_idx, v28_ix3, col_headOf]
  rfl

/-! ## The output projection -/

theorem v32_ix2 (x0 x1 x2 : Act) (x3 : Msk) (x4 x5 x6 x7 : Wt) (s : Fin 2048) (e : Fin 1024) :
    val_main_v32 (F := Ideal) x0 x1 x2 x3 x4 x5 x6 x7 (ix2 s e)
      = outR (mat x0) (mat x1) (mat x2) (mat x3) (mat x4) (mat x5) (mat x6) (mat x7) s e := by
  have hp := v1_ix2 (val_main_v30 (F := Ideal) x0 x1 x2 x3 x4 x5 x6) x7 s e
  refine hp.trans ?_
  unfold proj outR
  refine Finset.sum_congr rfl fun k _ => ?_
  exact congrArg (· * mat x7 e k) (v30_ix2 x0 x1 x2 x3 x4 x5 x6 s k)

/-- The reference program's result is the layer of the specification, every weight normalised first. -/
theorem result_eq (x0 x1 x2 : (⟨S2048x1024, .f32⟩ : BufTy).Contents (Elt Ideal)) (x3 : (⟨S2048x2048, .i1⟩ : BufTy).Contents (Elt Ideal))
    (x4 x5 x6 x7 : (⟨S1024x1024, .f32⟩ : BufTy).Contents (Elt Ideal)) :
    Cert.ReferenceIdeal.Read.val_main_v32 (F := Ideal) x0 x1 x2 x3 x4 x5 x6 x7
      = Cert.Attn.unmat (Cert.Attn.outR (Cert.Attn.mat x0) (Cert.Attn.mat x1) (Cert.Attn.mat x2) (Cert.Attn.mat x3)
          (Cert.Attn.mat x4) (Cert.Attn.mat x5) (Cert.Attn.mat x6) (Cert.Attn.mat x7)) := by
  funext i
  obtain ⟨a, b, rfl⟩ : ∃ (a : Fin 2048) (b : Fin 1024), i = ix2 a b := ⟨_, _, eq_ix2 i⟩
  exact (v32_ix2 x0 x1 x2 x3 x4 x5 x6 x7 a b).trans (unmat_ix2 _ a b).symm

end Cert.RefSide

end
-- ==== Proof.AttnAlgebra.lean ====
/-
  The two spellings of the attention normalisation agree when every score is a real number.

  With real scores the row maximum is real, every weight exp (score − maximum) is a positive real, and the sum of the
  weights is positive (possibly +∞), so dividing by it is multiplying by its inverse, a real number c ≥ 0.  Multiplying
  by a nonnegative real distributes over any finite sum of extended reals, which moves c inside the weighted sum.
-/
import proofs.«169011_j24979529793739_2_alg».proof.Proof.AttnSpec

noncomputable section

namespace Cert.Attn

open Idealize.ShloMosaic Idealize.ShloMosaic.ValueIdx

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h
  · rw [h]; exact hx
  · rw [h]; exact hy

/-- A finite sum of reals is a real. -/
theorem IsReal.sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih (fun i hi => h i (Finset.mem_insert_of_mem hi)))

/-- A floating-point pattern whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

theorem scale_isReal : IsReal scale := by
  show IsReal (Ideal.ieee 8 23 (0x3E000000#32))
  exact isReal_ieee 8 23 _ (by decide)

theorem negBig_isReal : IsReal negBig := by
  show IsReal (Ideal.ieee 8 23 (0xF149F2CA#32))
  exact isReal_ieee 8 23 _ (by decide)

theorem select_isReal (c : BitVec 1) {a b : EReal} (ha : IsReal a) (hb : IsReal b) :
    IsReal (Scalar.select c a b) := by
  unfold Scalar.select
  split_ifs
  · exact ha
  · exact hb

/-- The projection of real inputs by real weights is real. -/
theorem proj_isReal (x : Fin 2048 → Fin 1024 → EReal) (W : Fin 1024 → Fin 1024 → EReal)
    (hx : ∀ s c, IsReal (x s c)) (hW : ∀ a c, IsReal (W a c)) (s : Fin 2048) (j : Fin 1024) :
    IsReal (proj x W s j) :=
  IsReal.sum _ _ (fun k _ => (hx s k).mul (hW j k))

/-- Every score built from real projected rows is real. -/
theorem score_isReal (qp kp : Fin 2048 → Fin 1024 → EReal) (msk : Fin 2048 → Fin 2048 → BitVec 1)
    (hq : ∀ s c, IsReal (qp s c)) (hk : ∀ s c, IsReal (kp s c)) (h : Fin 16) (s t : Fin 2048) :
    IsReal (score qp kp msk h s t) :=
  select_isReal _ negBig_isReal
    ((IsReal.sum _ _ (fun d _ => (hq s (col h d)).mul (hk t (col h d)))).mul scale_isReal)

/-- A fold of `max` from −∞ over a nonempty finite set of reals is a real. -/
theorem fold_max_isReal {ι : Type} (f : ι → EReal) (hf : ∀ i, IsReal (f i)) (s : Finset ι) :
    s = ∅ ∨ IsReal (s.fold max (⊥ : EReal) f) := by
  classical
  induction s using Finset.induction_on with
  | empty => exact Or.inl rfl
  | insert a s ha ih =>
    right
    rw [Finset.fold_insert ha]
    rcases ih with h | h
    · subst h
      rw [Finset.fold_empty, max_eq_left bot_le]
      exact hf a
    · exact (hf a).max h

theorem rowmax_isReal (sc : Fin 2048 → EReal) (hsc : ∀ t, IsReal (sc t)) : IsReal (rowmax sc) := by
  rcases fold_max_isReal sc hsc Finset.univ with h | h
  · exact absurd h (Finset.univ_nonempty (α := Fin 2048)).ne_empty
  · exact h

/-- With real scores every weight is a positive real. -/
theorem wt_pos (sc : Fin 2048 → EReal) (hsc : ∀ t, IsReal (sc t)) (t : Fin 2048) : 0 < wt sc t := by
  obtain ⟨r, hr⟩ := (hsc t).sub (rowmax_isReal sc hsc)
  unfold wt
  rw [hr]
  exact EReal.coe_pos.2 (Real.exp_pos r)

/-- With real scores the sum of the weights is positive. -/
theorem den_pos (sc : Fin 2048 → EReal) (hsc : ∀ t, IsReal (sc t)) : 0 < den sc := by
  have h0 : wt sc 0 ≤ den sc :=
    Finset.single_le_sum (f := wt sc) (fun i _ => (wt_pos sc hsc i).le) (Finset.mem_univ (0 : Fin 2048))
  exact lt_of_lt_of_le (wt_pos sc hsc 0) h0

/-- The inverse of a positive extended real is a nonnegative real. -/
theorem inv_of_pos {x : EReal} (hx : 0 < x) : ∃ c : ℝ, 0 ≤ c ∧ x⁻¹ = (c : EReal) := by
  induction x using EReal.rec with
  | bot => exact absurd hx (not_lt.2 bot_le)
  | top => exact ⟨0, le_refl 0, by rw [EReal.inv_top]; rfl⟩
  | coe r =>
    exact ⟨r⁻¹, inv_nonneg.2 (EReal.coe_pos.1 hx).le, (EReal.coe_inv r).symm⟩

/-- Multiplying by a nonnegative real distributes over any finite sum of extended reals. -/
theorem sum_mul_coe {ι : Type} (s : Finset ι) (a : ι → EReal) (c : ℝ) (hc : 0 ≤ c) :
    (∑ i ∈ s, a i) * (c : EReal) = ∑ i ∈ s, a i * (c : EReal) := by
  classical
  induction s using Finset.induction_on with
  | empty => simp
  | insert b s hb ih =>
    rw [Finset.sum_insert hb, Finset.sum_insert hb,
      EReal.right_distrib_of_nonneg_of_ne_top (EReal.coe_nonneg.2 hc) (EReal.coe_ne_top c), ih]

/-- With real scores, dividing the weighted sum once is dividing every weight first. -/
theorem headK_eq_headR (sc v : Fin 2048 → EReal) (hsc : ∀ t, ∃ r : ℝ, sc t = (r : EReal)) :
    headK sc v = headR sc v := by
  have hd : den sc ≠ 0 := (den_pos sc hsc).ne'
  obtain ⟨c, hc, hinv⟩ := inv_of_pos (den_pos sc hsc)
  have hdiv : ∀ x : EReal, Ideal.div x (den sc) = x * (c : EReal) := by
    intro x
    unfold Ideal.div
    rw [if_neg hd, hinv]
  unfold headK headR
  rw [hdiv, sum_mul_coe _ _ c hc]
  refine Finset.sum_congr rfl (fun t _ => ?_)
  rw [hdiv, mul_right_comm]

theorem outK_eq_outR (q k v : Fin 2048 → Fin 1024 → EReal) (msk : Fin 2048 → Fin 2048 → BitVec 1)
    (Wq Wk Wv Wo : Fin 1024 → Fin 1024 → EReal)
    (hq : ∀ s c, ∃ r : ℝ, q s c = (r : EReal)) (hk : ∀ s c, ∃ r : ℝ, k s c = (r : EReal))
    (hWq : ∀ a c, ∃ r : ℝ, Wq a c = (r : EReal)) (hWk : ∀ a c, ∃ r : ℝ, Wk a c = (r : EReal)) :
    outK q k v msk Wq Wk Wv Wo = outR q k v msk Wq Wk Wv Wo := by
  funext s e
  unfold outK outR
  refine Finset.sum_congr rfl (fun j _ => ?_)
  congr 1
  unfold attnK attnR
  exact headK_eq_headR _ _
    (fun t => score_isReal _ _ msk (proj_isReal q Wq hq hWq) (proj_isReal k Wk hk hWk) (headOf j) s t)

end Cert.Attn

end
-- ==== Proof.PreFinite.lean ====
/-
  Finiteness out of the precondition.

  The precondition asks, for each of the seven float arguments x, that every entry satisfies |x| < +∞ (a comparison
  of the array of absolute values against the splat of +∞, folded by "and" over both axes), and joins the seven
  answers by "and".  Over the extended reals |x| = max x (-x), and max x (-x) < ⊤ excludes both x = ⊤ and x = ⊥
  (because -⊥ = ⊤), so every entry of every float argument is a real number.
-/
import proofs.«169011_j24979529793739_2_alg».proof.Pre_finite_inputs
import Idealize.ShloMosaic.PureOps.Ideal
import Idealize.ShloMosaic.Lib.ValueIdx
import Idealize.ShloMosaic.Lib.ReduceAll

noncomputable section

namespace Cert.PreFinite

open Idealize.ShloMosaic Idealize.ShloMosaic.ValueIdx

/-- The rank-0 shape has exactly one index. -/
instance : Subsingleton (⟨0, ![]⟩ : Shape).Idx := ⟨fun a b => funext fun d => d.elim0⟩

/-- An extended real whose absolute value max x (-x) is below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The bit pattern 0x7F800000 denotes +∞. -/
theorem ofBits_inf : Ideal.ofBits .f32 0x7F800000#32 = (⊤ : EReal) := by simp [Ideal.ofBits, Ideal.ieee]

/-- One conjunct of the precondition: if "all |x| < +∞" folds to 1, every entry of x is real. -/
theorem real_of_all {s u : Shape} {axes : List (Fin s.rank)} (x : FVec Ideal s .f32)
    (hb : (⟨0, ![]⟩ : Shape).BroadcastsInDim s (![] : Fin 0 → Fin s.rank))
    (hr : s.ReducesTo axes (⟨0, ![]⟩ : Shape)) (init : u.Idx → BitVec 1) (hu : 0 < u.numel)
    (h : Host.reduce IntOp.andi
          (cmpf .olt (Host.absf x) (broadcastInDim s ![] hb (constant (⟨0, ![]⟩ : Shape) .f32 0x7F800000#32))) init hr hu ix0 = 1#1) :
    ∀ i, ∃ r : ℝ, x i = (r : EReal) := by
  intro i
  have e := Host.reduce_andi_all _ init hr hu ix0 h i
  have hc : broadcastInDim s ![] hb (constant (F := Ideal) (⟨0, ![]⟩ : Shape) .f32 0x7F800000#32) i
      = Ideal.ofBits .f32 0x7F800000#32 := rfl
  rw [cmpf_apply, hc, ofBits_inf] at e
  apply real_of_abs_lt_top
  have e' : Ideal.cmp .olt (max (x i) (-(x i))) (⊤ : EReal) = 1#1 := e
  simp only [Ideal.cmp] at e'
  by_contra hn
  simp [hn] at e'

open Cert.Pre_finite_inputs in
/-- The precondition makes every entry of every float argument a real number. -/
theorem real_of_pre_all [Cert.Pre_finite_inputs.Facts]
    (a0 a1 a2 : FVec Ideal Cert.Pre_finite_inputs.S2048x1024 .f32) (a3 : IVec Cert.Pre_finite_inputs.S2048x2048 1)
    (a4 a5 a6 a7 : FVec Ideal Cert.Pre_finite_inputs.S1024x1024 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have h0 := congrFun h ix0
  dsimp only [Cert.Pre_finite_inputs.fn, Cert.Pre_finite_inputs.fn_part1] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h2⟩ := IntOp.andi_eq_one.1 h0
  obtain ⟨h0, h1⟩ := IntOp.andi_eq_one.1 h0
  exact ⟨real_of_all a0 _ _ _ _ h0, real_of_all a1 _ _ _ _ h1, real_of_all a2 _ _ _ _ h2, real_of_all a4 _ _ _ _ h4,
    real_of_all a5 _ _ _ _ h5, real_of_all a6 _ _ _ _ h6, real_of_all a7 _ _ _ _ h7⟩

/-- The four arguments the attention law reads. -/
theorem real_of_pre [Cert.Pre_finite_inputs.Facts]
    (a0 a1 a2 : FVec Ideal Cert.Pre_finite_inputs.S2048x1024 .f32) (a3 : IVec Cert.Pre_finite_inputs.S2048x2048 1)
    (a4 a5 a6 a7 : FVec Ideal Cert.Pre_finite_inputs.S1024x1024 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a4 i = (r : EReal))
      ∧ (∀ i, ∃ r : ℝ, a5 i = (r : EReal)) := by
  obtain ⟨r0, r1, _, r4, r5, _, _⟩ := real_of_pre_all a0 a1 a2 a3 a4 a5 a6 a7 h
  exact ⟨r0, r1, r4, r5⟩

end Cert.PreFinite

end
-- ==== Proof.lean ====
/-
  The certificate of a multi-head attention layer: a five-region TPU program against its plain reference, equal as
  extended reals.

  Both programs compute, for 2048 positions of 1024 features in 16 heads of 64, the projections q · Wqᵀ, k · Wkᵀ,
  v · Wvᵀ, per head the scores (inner products over the head's 64 features, times 1/8, replaced by a fixed large
  negative number where the mask is set), the weights exp (score − row maximum), the weighted sum of the values
  normalised by the sum of the weights, and a last product with Woᵀ.  They differ in ONE place: the kernel divides the
  weighted sum Σ w · v by Σ w once, the reference divides every weight first, Σ (w / Σ w) · v.  On the extended reals
  the two agree as soon as Σ w is positive: its inverse is then a nonnegative real (zero if Σ w = +∞), and a product
  with a nonnegative real distributes over any finite sum of extended reals.  Σ w is positive because the row's
  maximal score minus itself is 0, of weight 1 — for which the scores must be real numbers, and they are when the
  queries, the keys and their two weight matrices are finite: that is where the precondition is used (of the values
  and the two other matrices nothing is needed).  Every rounding to bf16 is the identity here, and the blocking of
  the products over grid points does not show in the values.

  The frames of the two kernel programs are the generated ones; the reference's frame is its generated run with the
  result dropped; the idealization rewrote nothing.
-/
import proofs.«169011_j24979529793739_2_alg».proof.Defs
import proofs.«169011_j24979529793739_2_alg».proof.Proof.Gen.Kernel
import proofs.«169011_j24979529793739_2_alg».proof.Proof.Gen.Kernel.Skeleton
import proofs.«169011_j24979529793739_2_alg».proof.Proof.Gen.Kernel.Launch
import proofs.«169011_j24979529793739_2_alg».proof.Proof.Gen.Kernel.Points
import proofs.«169011_j24979529793739_2_alg».proof.Proof.Gen.Kernel.Frame
import proofs.«169011_j24979529793739_2_alg».proof.Proof.Gen.KernelIdeal
import proofs.«169011_j24979529793739_2_alg».proof.Proof.Gen.KernelIdeal.Skeleton
import proofs.«169011_j24979529793739_2_alg».proof.Proof.Gen.KernelIdeal.Launch
import proofs.«169011_j24979529793739_2_alg».proof.Proof.Gen.KernelIdeal.Points
import proofs.«169011_j24979529793739_2_alg».proof.Proof.Gen.KernelIdeal.Frame
import proofs.«169011_j24979529793739_2_alg».proof.Proof.Gen.ReferenceIdeal
import proofs.«169011_j24979529793739_2_alg».proof.Proof.Gen.ReferenceIdeal.Run
import proofs.«169011_j24979529793739_2_alg».proof.Proof.Gen.ReferenceIdeal.Read
import proofs.«169011_j24979529793739_2_alg».proof.Proof.Gen.Pre_finite_inputs
import proofs.«169011_j24979529793739_2_alg».proof.Proof.KValue
import proofs.«169011_j24979529793739_2_alg».proof.Proof.RefSide
import proofs.«169011_j24979529793739_2_alg».proof.Proof.AttnAlgebra
import proofs.«169011_j24979529793739_2_alg».proof.Proof.PreFinite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `Cert.KernelIdeal.Value.result` of the kernel's arguments: the kernel by its regions'
    values composed, the reference by its operations read one at a time and the one law that joins the two
    normalisations, which holds because the precondition makes the scores real. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨f0, f1, f4, f5⟩ := Cert.PreFinite.real_of_pre _ _ _ _ _ _ _ _ (hpre c)
  rw [Cert.ReferenceIdeal.Read.val_main_v32_eq, Cert.RefSide.result_eq, e0, e1, e2, e3, e4, e5, e6, e7]
  unfold Cert.KernelIdeal.Value.result
  exact congrArg Cert.Attn.unmat (Cert.Attn.outK_eq_outR _ _ _ _ _ _ _ _
    (fun s k => f0 (ix2 s k)) (fun s k => f1 (ix2 s k)) (fun a k => f4 (ix2 a k)) (fun a k => f5 (ix2 a k))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
